-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2000 : Shape := ⟨2, ![10000, 2000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_

variable [Facts]

def fn {F : FTy → Type} [FloatOps F] (main_arg0 : FVec F S10000x128 .f32) (main_arg1 : FVec F S10000x2000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_cst_2 : FVec F S_ .f32 := constant S_ .f32 0x00000000#32
  let main_v9 : FVec F S10000x2000 .f32 := broadcastInDim S10000x2000 ![] bcast_S_S10000x2000 main_cst_2
  let main_v10 : IVec S10000x2000 1 := cmpf .oeq main_arg1 main_v9
  let main_cst_3 : FVec F S_ .f32 := constant S_ .f32 0x3F800000#32
  let main_v11 : FVec F S10000x2000 .f32 := broadcastInDim S10000x2000 ![] bcast_S_S10000x2000 main_cst_3
  let main_v12 : IVec S10000x2000 1 := cmpf .oeq main_arg1 main_v11
  let main_v13 : IVec S10000x2000 1 := ori main_v10 main_v12
  let main_c_4 : IVec S_ 1 := constantI S_ 1 1#1
  let main_v14 : IVec S_ 1 := (fun x v => Host.reduce IntOp.andi x v reducesTo_S10000x2000_S_d0_1 h_S_) main_v13 main_c_4
  let main_v15 : IVec S_ 1 := andi main_v8 main_v14
  main_v15
-- ==== Kernel.lean ====
abbrev S10000x128 : Shape := ⟨2, ![10000, 128]⟩
abbrev S10000x2000 : Shape := ⟨2, ![10000, 2000]⟩
abbrev S128 : Shape := ⟨1, ![128]⟩
abbrev S128x1 : Shape := ⟨2, ![128, 1]⟩
abbrev S128x128 : Shape := ⟨2, ![128, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S10000x128, .bf16⟩
  | .hbm, ⟨3, _⟩ => ⟨S10000x128, .f32⟩
  | .hbm, ⟨4, _⟩ => ⟨S10000x128, .bf16⟩
  | .hbm, ⟨5, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .bf16⟩
  | .local _ .vmem, ⟨3, _⟩ => ⟨S10000x128, .f32⟩
  | .local _ .vmem, ⟨4, _⟩ => ⟨S10000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  iota_S10000x128_d1_w32 : S10000x128.Iotas .tc 32 [1]
  reduces_S10000x128_S128 : S10000x128.Reduces [0] S128
  shapeCasts_S128_S128x1 : S128.ShapeCasts S128x1
  shapeCasts_S10000x128_S10000x128 : S10000x128.ShapeCasts S10000x128
  broadcasts_S128x1_S128x128 : S128x1.Broadcasts S128x128
  packedbf16_S10000x128_S10000x128_0_0 : (Rect.unit (s := S10000x128) ![0, 0] S10000x128.size inb_S10000x128_S10000x128_0_0).PackedRows (EltTy.packing .bf16)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S10000x128_S10000x128_S128x128_0_0_1_1_n_n_wf : DotDims.WF S10000x128 S10000x128 S128x128 [0] [0] [1] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S10000x128.size a < S10000x2000.size a
  hwx0_0 : ∀ i : grid0.Coords, EltTy.bits .f32 = 32 ∨ (Rect.unit (s := S10000x2000) (fun a => cc0_transform_0 i a * S10000x128.size a) (fun a => (Pipeline.Clip.of (cc0_transform_0 i a) (S10000x128.size a) (S10000x2000.size a)).extent (S10000x128.size a)) fun a => Pipeline.Clip.inb (Pipeline.Clip.ok_of (hstart0_0 i a))).WholeWords (EltTy.packing .f32)
  hwxs0_0 : ∀ i : grid0.Coords, EltTy.bits .f32 = 32 ∨ (Rect.unit (s := S10000x128) (fun _ => 0) (fun a => (Pipeline.Clip.of (cc0_transform_0 i a) (S10000x128.size a) (S10000x2000.size a)).extent (S10000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .bf16 = 32 ∨ (Rect.block (s := S10000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .bf16 = 32 ∨ (Rect.block (s := S10000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpecClip (Memref.whole main_arg1) S10000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S10000x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v1_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x2000 : Shape := ⟨2, ![10000, 2000]⟩
abbrev S_ : Shape := ⟨0, ![]⟩
abbrev S2000 : Shape := ⟨1, ![2000]⟩
abbrev S10000 : Shape := ⟨1, ![10000]⟩
abbrev S2000x10000 : Shape := ⟨2, ![2000, 10000]⟩
abbrev S2000x128 : Shape := ⟨2, ![2000, 128]⟩
abbrev S2000x1 : Shape := ⟨2, ![2000, 1]⟩
abbrev S10000x1 : Shape := ⟨2, ![10000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S_, .f32⟩
  | .hbm, ⟨3, _⟩ => ⟨S10000x2000, .f32⟩
  | .hbm, ⟨4, _⟩ => ⟨S10000x2000, .i1⟩
  | .hbm, ⟨5, _⟩ => ⟨S10000x2000, .f32⟩
  | .hbm, ⟨6, _⟩ => ⟨S_, .f32⟩
  | .hbm, ⟨7, _⟩ => ⟨S2000, .f32⟩
  | .hbm, ⟨8, _⟩ => ⟨S_, .f32⟩
  | .hbm, ⟨9, _⟩ => ⟨S2000, .f32⟩
  | .hbm, ⟨10, _⟩ => ⟨S2000, .i1⟩
  | .hbm, ⟨11, _⟩ => ⟨S_, .f32⟩
  | .hbm, ⟨12, _⟩ => ⟨S_, .f32⟩
  | .hbm, ⟨13, _⟩ => ⟨S2000, .f32⟩
  | .hbm, ⟨14, _⟩ => ⟨S2000, .f32⟩
  | .hbm, ⟨15, _⟩ => ⟨S_, .f32⟩
  | .hbm, ⟨16, _⟩ => ⟨S2000, .f32⟩
  | .hbm, ⟨17, _⟩ => ⟨S2000, .f32⟩
  | .hbm, ⟨18, _⟩ => ⟨S_, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S2000x10000, .f32⟩
  | .hbm, ⟨31, _⟩ => ⟨S2000x128, .f32⟩
  | .hbm, ⟨32, _⟩ => ⟨S2000x1, .f32⟩
  | .hbm, ⟨33, _⟩ => ⟨S2000x128, .f32⟩
  | .hbm, ⟨34, _⟩ => ⟨S2000x128, .f32⟩
  | .hbm, ⟨35, _⟩ => ⟨S10000x128, .f32⟩
  | .hbm, ⟨36, _⟩ => ⟨S10000x1, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S10000x2000 : S_.BroadcastsInDim S10000x2000 (![] : Fin 0 → Fin S10000x2000.rank)
  reducesTo_S10000x2000_S2000_d0 : S10000x2000.ReducesTo [0] S2000
  h_S_ : 0 < S_.numel
  bcast_S_S2000 : S_.BroadcastsInDim S2000 (![] : Fin 0 → Fin S2000.rank)
  reducesTo_S10000x2000_S10000_d1 : S10000x2000.ReducesTo [1] S10000
  bcast_S_S10000 : S_.BroadcastsInDim S10000 (![] : Fin 0 → Fin S10000.rank)
  transposes_S10000x2000_S2000x10000_1_0 : S10000x2000.Transposes [1, 0] S2000x10000
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S2000x10000_S10000x128_S2000x128_1_0_0_1_n_n_wf : DotDims.WF S2000x10000 S10000x128 S2000x128 [1] [0] [0] [1] [] []
  dot_S10000x2000_S2000x128_S10000x128_1_0_0_1_n_n_wf : DotDims.WF S10000x2000 S2000x128 S10000x128 [1] [0] [0] [1] [] []

variable [Facts₀]

def dot_S2000x10000_S10000x128_S2000x128_1_0_0_1_n_n : DotDims S2000x10000 S10000x128 S2000x128 where
  lhsContracting := [1]
  rhsContracting := [0]
  lhsNonContracting := [0]
  rhsNonContracting := [1]
  lhsBatch := []
  rhsBatch := []
  wf := dot_S2000x10000_S10000x128_S2000x128_1_0_0_1_n_n_wf
def dot_S10000x2000_S2000x128_S10000x128_1_0_0_1_n_n : DotDims S10000x2000 S2000x128 S10000x128 where
  lhsContracting := [1]
  rhsContracting := [0]
  lhsNonContracting := [0]
  rhsNonContracting := [1]
  lhsBatch := []
  rhsBatch := []
  wf := dot_S10000x2000_S2000x128_S10000x128_1_0_0_1_n_n_wf

class Facts : Prop extends Facts₀ where

variable [Facts]
-- ==== Proof.K.Data.lean ====
/-
  The proof data of the two pallas_calls, over the contents `V` of the TensorCore's buffers when a region is entered.

  Region 0 (16 grid points, one per stripe of 128 tag columns). Window 0 stages the stripe of the incidence matrix; its
  last block overhangs the array, so the staging buffer's lanes past the array hold nothing that is named: `hblk` is the
  stripe with those lanes filled with the zero word (the body masks them before it uses them, so the filler is never read).
  Window 1 is the whole bf16 embedding matrix. Windows 2 and 3 are the two accumulators, kept in their staging buffers over
  the grid and written back after the last point: after point n they hold `accAt n` and `sAt n`, each the body's payload of
  the point's stripe over what the point before left, from the zero fill at the first point.
  Region 1 (5 blocks of 2000 rows): the output block is the body's payload of the two input blocks.
  Then the buffers' contents at @main's four boundaries, each region's arrays at what its write-backs leave.
-/
import proofs.«167729_g46076409151878_cont_8to1_c_255_12_alg».proof.Proof.Gen.Kernel.Launch
import proofs.«167729_g46076409151878_cont_8to1_c_255_12_alg».proof.Proof.Gen.Kernel.Skeleton
import proofs.«167729_g46076409151878_cont_8to1_c_255_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## Region 0 -/

/-- Window `w`'s block at point `t` (its part inside the array), read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Stripe `t` of the incidence matrix as a full 10000 × 128 block: the part inside the array, the zero word on the lanes past it. -/
def hblk (c : Dev nD) (t : Fin cfg0.N) : Vec F S10000x128 .f32 :=
  win0_0.fill (grid0.coords t) (fun _ => Scalar.ofBits .f32 0#32) (iblk0 V c 0 t)

/-- The bf16 embedding matrix (window 1's block is the whole array at every point). -/
def xblk (c : Dev nD) (t : Fin cfg0.N) : Vec F S10000x128 .bf16 := iblk0 V c 1 t

/-- The first accumulator after point `n`. -/
def accAt (c : Dev nD) : (n : ℕ) → n < cfg0.N → Vec F S10000x128 .f32
  | 0, hn => k0_pay5 (grid0.coords ⟨0, hn⟩) (hblk V c ⟨0, hn⟩) (xblk V c ⟨0, hn⟩) (k0_pay3 (F := F))
  | n + 1, hn => k0_pay5 (grid0.coords ⟨n + 1, hn⟩) (hblk V c ⟨n + 1, hn⟩) (xblk V c ⟨n + 1, hn⟩) (accAt c n (Nat.lt_of_succ_lt hn))

/-- The second accumulator after point `n`. -/
def sAt (c : Dev nD) : (n : ℕ) → n < cfg0.N → Vec F S10000x128 .bf16
  | 0, hn => k0_pay6 (grid0.coords ⟨0, hn⟩) (hblk V c ⟨0, hn⟩) (k0_pay4 (F := F))
  | n + 1, hn => k0_pay6 (grid0.coords ⟨n + 1, hn⟩) (hblk V c ⟨n + 1, hn⟩) (sAt c n (Nat.lt_of_succ_lt hn))

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => hblk V c t
    | ⟨1, _⟩ => xblk V c t
    | ⟨2, _⟩ => accAt V c t.val t.isLt
    | ⟨3, _⟩ => sAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = hblk V c t := by dsimp only [dat0]
theorem after0_1 (c : Dev nD) (t : Fin cfg0.N) : (dat0 V c).after 1 t = xblk V c t := by dsimp only [dat0]
theorem after0_2 (c : Dev nD) (t : Fin cfg0.N) : (dat0 V c).after 2 t = accAt V c t.val t.isLt := by dsimp only [dat0]
theorem after0_3 (c : Dev nD) (t : Fin cfg0.N) : (dat0 V c).after 3 t = sAt V c t.val t.isLt := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer at point `t`: the quotient of the accumulator's block by the degrees. -/
def outAt1 (c : Dev nD) (t : Fin cfg1.N) : Vec F S2000x128 .f32 := k1_pay1 (iblk1 V c 1 t) (iblk1 V c 0 t)

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

end Regions

/-! ## The buffers' contents at @main's boundaries -/

variable (m : (ℓ : Loc nD τ sig) → Buf (Elt F) ℓ)

/-- Core `c`'s buffers at launch. -/
abbrev W0 : Dev nD → Valuation τ sig (Elt F) := fun c b => m ((c : Dev nD), b)
/-- After the host stretch (the embeddings converted to bf16): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c

end Cert.Kernel.Hand

end
-- ==== Proof.K.Launch.lean ====
/-
  The launch: @main is a host stretch (the embeddings converted to bf16), then the two pallas_calls. Each region is entered
  from every unscoped buffer held at the boundary's contents, splits its windows' arrays out of them, runs its pipeline against
  its proof data, and puts the arrays back at what the write-backs left; the generator register and the core's (empty) debt
  ride along. Given the two body obligations, every weakly fair execution from zero counters terminates without a fault,
  with every unscoped buffer at the last boundary's contents `W3`.
-/
import proofs.«167729_g46076409151878_cont_8to1_c_255_12_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, at nothing. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor

/-- The host stretch as a segment over the unscoped references from the launch contents. -/
abbrev seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W3 m c) ∗ ∃ r, prngReg c r)

variable (hb0 : ∀ c : Dev nD, BodyObligationLoose (dat0 (F := F) (V1 m) c) (defs₀ (F := F)) Variants.none () Set.univ)
  (hb1 : ∀ c : Dev nD, BodyObligationLoose (dat1 (F := F) (V2 m) c) (defs₀ (F := F)) Variants.none () Set.univ)

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := hb0 c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (seg0 m), .region (reg0 m hb0), .region (reg1 m hb1) ]

include hb0 hb1 in
set_option backward.isDefEq.respectTransparency.types false in
/-- THE RUN: from any memory with zero counters every weakly fair execution of @main terminates, nothing faulting, and every
    final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m hb0 hb1)
    (fun c Q => by rw [main_segs adm (pdats m) () 𝒱₀ L lv (seg0 m) (reg0 m hb0) (reg1 m hb1) rfl c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := StableHlo.after_of_writes_sub hostOps0 _ (W := [main_call0_v0]) (by
        simp only [List.Forall]; exact (by simp only [StableHlo.nullary_writes, StableHlo.unary_writes, StableHlo.binary_writes, Finset.singleton_subset_iff, List.mem_toFinset]; exact List.mem_map_of_mem (by decide))) (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := StableHlo.after_of_writes_sub hostOps0 _ (W := [main_call0_v0]) (by
        simp only [List.Forall]; exact (by simp only [StableHlo.nullary_writes, StableHlo.unary_writes, StableHlo.binary_writes, Finset.singleton_subset_iff, List.mem_toFinset]; exact List.mem_map_of_mem (by decide))) (by decide)

include hb0 hb1 in
/-- THE FRAME, given the two body obligations. -/
theorem frame_of (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_main_arg0 m c),
       (h c _ (mem_uc main_arg1 (by decide))).trans (W3_main_arg1 m c)⟩)
    (run m hb0 hb1 ρ)

end Cert.Kernel.Hand

end
-- ==== Proof.K.Mask.lean ====
/-
  The body keeps lane l of stripe t only where l < 2000 − 128 t (a signed comparison of 32-bit words that never wraps for
  t < 16) and puts zero elsewhere. A lane the clipped fetch did not move lies at or past that bound, so the masked stripe —
  and with it everything the body computes — is the same whatever those lanes hold.
-/
import proofs.«167729_g46076409151878_cont_8to1_c_255_12_alg».proof.Proof.Gen.Kernel.Launch
import proofs.«167729_g46076409151878_cont_8to1_c_255_12_alg».proof.Proof.Gen.Kernel.Skeleton
import proofs.«167729_g46076409151878_cont_8to1_c_255_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167729_g46076409151878_cont_8to1_c_255_12_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lane mask of custom_call 0

The body keeps lane `l` of stripe `n` where `l < 2000 - 128 n` and puts the zero word elsewhere, so the
lanes past the array's end — the ones a cut fetch does not move — never reach the arithmetic. -/

/-- The mask bit at coordinates `i` and index `j`: whether lane `j 1` of stripe `i 0` lies inside the array. -/
def maskBit (i : grid0.Coords) (j : S10000x128.Idx) : BitVec 1 :=
  IntOp.cmpi .slt (BitVec.ofNat 32 (0 * 128 + (j 1).val)) (Scalar.subi 2000#32 (Scalar.muli (BitVec.ofNat 32 (i 0).val) 128#32))

/-- The masked stripe at an index. -/
theorem pay1_apply (i : grid0.Coords) (v0 : Vec F S10000x128 .f32) (j : S10000x128.Idx) :
    k0_pay1 i v0 j = Scalar.select (maskBit i j) (v0 j) (Scalar.ofBits .f32 0x00000000#32) := rfl

/-- A lane the cut fetch of stripe `n` does not move is masked off. -/
theorem mask_off_num : ∀ (n : Fin 16) (l : Fin 128),
    ¬ l.val < (Pipeline.Clip.of (BitVec.ofNat 32 n.val).toNat 128 2000).extent 128 →
    IntOp.cmpi .slt (BitVec.ofNat 32 (0 * 128 + l.val)) (Scalar.subi 2000#32 (Scalar.muli (BitVec.ofNat 32 n.val) 128#32)) = 0#1 := by
  decide +kernel

/-- An index the fetch at `i` does not move is masked off. -/
theorem maskBit_of_not_moved (i : grid0.Coords) (j : S10000x128.Idx) (h : ¬ win0_0.moved i j = true) : maskBit i j = 0#1 := by
  rw [Window.moved_iff] at h
  have h1 : ¬ (j 1).val < win0_0.xsize i 1 := by
    intro h1; apply h; intro a
    match a with
    | ⟨0, _⟩ => exact (j 0).isLt
    | ⟨1, _⟩ => exact h1
  exact mask_off_num ⟨(i 0).val, (i 0).isLt⟩ ⟨(j 1).val, (j 1).isLt⟩ h1

/-- The masked stripe reads its argument only at the indices the mask keeps. -/
theorem pay1_congr (i : grid0.Coords) (v v' : Vec F S10000x128 .f32) (h : ∀ j, maskBit i j = 1 → v j = v' j) :
    k0_pay1 i v = k0_pay1 i v' := by
  funext j
  rw [pay1_apply, pay1_apply]
  unfold Scalar.select
  by_cases hb : maskBit i j = 1
  · rw [if_pos hb, if_pos hb]; exact h j hb
  · rw [if_neg hb, if_neg hb]

/-- the masked stripe does not see the filler -/
theorem pay1_fill (t : Fin cfg0.N) (d d' : S10000x128.Idx → Elt F .f32) (g : (win0_0.xblock (grid0.coords t)).Idx → Elt F .f32) :
    k0_pay1 (F := F) (grid0.coords t) (win0_0.fill (grid0.coords t) d g) = k0_pay1 (grid0.coords t) (win0_0.fill (grid0.coords t) d' g) := by
  apply pay1_congr
  intro j hb
  by_cases hm : win0_0.moved (grid0.coords t) j = true
  · unfold Window.fill; rw [dif_pos hm, dif_pos hm]
  · rw [maskBit_of_not_moved _ _ hm] at hb; exact absurd hb (by decide)

theorem pay5_fill (t : Fin cfg0.N) (d d' : S10000x128.Idx → Elt F .f32) (g : (win0_0.xblock (grid0.coords t)).Idx → Elt F .f32)
    (x : Vec F S10000x128 .bf16) (a : Vec F S10000x128 .f32) :
    k0_pay5 (F := F) (grid0.coords t) (win0_0.fill (grid0.coords t) d g) x a = k0_pay5 (grid0.coords t) (win0_0.fill (grid0.coords t) d' g) x a := by
  unfold k0_pay5 k0_pay2; rw [pay1_fill t d d' g]

theorem pay6_fill (t : Fin cfg0.N) (d d' : S10000x128.Idx → Elt F .f32) (g : (win0_0.xblock (grid0.coords t)).Idx → Elt F .f32)
    (s : Vec F S10000x128 .bf16) :
    k0_pay6 (F := F) (grid0.coords t) (win0_0.fill (grid0.coords t) d g) s = k0_pay6 (grid0.coords t) (win0_0.fill (grid0.coords t) d' g) s := by
  unfold k0_pay6 k0_pay2; rw [pay1_fill t d d' g]

end Cert.Kernel.Hand

end
-- ==== Proof.K.Run0.lean ====
/-
  The first pallas_call's body run on whole staging buffers, in its two control cases: at the first grid point both
  accumulators are reset to zero and then added to; at every later point they are added to as found. Every load and store is
  of a whole buffer, so a load reads the buffer's contents and a store leaves exactly its payload.
-/
import proofs.«167729_g46076409151878_cont_8to1_c_255_12_alg».proof.Proof.K.Data
import proofs.«167729_g46076409151878_cont_8to1_c_255_12_alg».proof.Proof.Gen.Kernel.Launch
import proofs.«167729_g46076409151878_cont_8to1_c_255_12_alg».proof.Proof.Gen.Kernel.Skeleton
import proofs.«167729_g46076409151878_cont_8to1_c_255_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first point's branch condition, as the printed body computes it. -/
abbrev cond0 (i : grid0.Coords) : Prop := Scalar.cmpi .ne (Scalar.extui (Scalar.cmpi .eq (BitVec.ofNat 32 (i 0).val) 0#32)) 0#32 = 1#1

/-- The zero offsets, spelt as the body's accesses spell them. -/
private theorem hz00 : (![0, 0] : Fin 2 → Nat) = fun _ => 0 := by funext a; fin_cases a <;> rfl

/-- The rectangle of every access of the body: the whole buffer. -/
private abbrev rW : Rect S10000x128 := Rect.unit (s := S10000x128) ![0, 0] S10000x128.size Facts₀.inb_S10000x128_S10000x128_0_0

/-- A list of stores whose last is of the whole buffer covers it. -/
private theorem cover_rW {e : EltTy} (p : rW.shape.Idx → Elt F e) (L : List (View.Piece (Elt F) S10000x128 e)) (y : S10000x128.Idx) :
    ∃ pc ∈ ((⟨rW, p⟩ : View.Piece (Elt F) S10000x128 e) :: L), y ∈ pc.1.set :=
  ⟨_, List.mem_cons_self, View.mem_set_unit_zero (S := S10000x128) hz00 Facts₀.inb_S10000x128_S10000x128_0_0 y⟩

/-- What a list of stores whose last is of the whole buffer leaves: the last payload. -/
private theorem read_writes_rW {sp : Space} {e : EltTy} (v : View sig .tc sp S10000x128 e) (f : v.ty.Contents (Elt F))
    (p : rW.shape.Idx → Elt F e) (L : List (View.Piece (Elt F) S10000x128 e)) :
    v.read (Elt F) (v.writes (Elt F) f ((⟨rW, p⟩ : View.Piece (Elt F) S10000x128 e) :: L)) = p := by
  rw [View.read_writes_eq_canon v f _ (cover_rW p L)]
  exact View.canon_cons_unit_zero (S := S10000x128) hz00 Facts₀.inb_S10000x128_S10000x128_0_0 p L

/-- A load of the whole buffer reads its contents. -/
private theorem readAt_rW {sp : Space} {e : EltTy} (v : View sig .tc sp S10000x128 e) (f : v.ty.Contents (Elt F)) :
    v.readAt (Elt F) rW.toLoadRect f = v.read (Elt F) f := by
  rw [View.readAt_eq_ld]
  exact View.ld_unit_zero (S := S10000x128) hz00 Facts₀.inb_S10000x128_S10000x128_0_0 _

/-- A load of the whole buffer after one store of the whole buffer reads the payload stored. -/
private theorem readCov_rW {sp : Space} {e : EltTy} (v : View sig .tc sp S10000x128 e) (p : rW.shape.Idx → Elt F e) :
    v.readCov [(⟨rW, p⟩ : View.Piece (Elt F) S10000x128 e)] rW.toLoadRect = p :=
  View.readCov_unit_zero v hz00 Facts₀.inb_S10000x128_S10000x128_0_0 p

set_option maxHeartbeats 1000000 in
/-- FIRST POINT (the branch taken): both outputs are reset, then accumulated into. -/
theorem sound_kernel0_A (c : Dev nD) (E : Set ℕ) (i : grid0.Coords) (hc : cond0 i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
              ∗ owns (c : Thread nD τ) arg3 fullShare (k0_pay5 i x0 x1 (k0_pay3 (F := F)))
              ∗ owns (c : Thread nD τ) arg4 fullShare (k0_pay6 i x0 (k0_pay4 (F := F)))) -∗ K ⟨⟩))
      ⊢ wp frame (wpE (defs₀ (F := F)) Variants.none c none) E (cc0__acc_kernel i arg1 harg1 arg2 harg2 arg3 harg3 arg4 harg4) K := by
  simp only [cc0__acc_kernel_eq_skeleton]; unfold cc0__acc_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readCov_rW, readAt_rW, readAt_rW]
  iexists _; isplitr
  swap; · iexact H3
  ipureintro
  sl_unfold_run_names
  rw [read_writes_rW, readCov_rW, readAt_rW]

set_option maxHeartbeats 1000000 in
/-- LATER POINTS (the branch not taken): both outputs hold what the point before left and are accumulated into. -/
theorem sound_kernel0_B (c : Dev nD) (E : Set ℕ) (i : grid0.Coords) (hc : ¬ cond0 i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (a3 : Vec F S10000x128 .f32) (a4 : Vec F S10000x128 .bf16) (K : PUnit → sProp 𝕄) :
    iprop(owns (c : Thread nD τ) arg1 fullShare x0 ∗ owns (c : Thread nD τ) arg2 fullShare x1
        ∗ owns (c : Thread nD τ) arg3 fullShare a3 ∗ owns (c : Thread nD τ) arg4 fullShare a4
        ∗ (iprop(owns (c : Thread nD τ) arg1 fullShare x0 ∗ owns (c : Thread nD τ) arg2 fullShare x1
              ∗ owns (c : Thread nD τ) arg3 fullShare (k0_pay5 i x0 x1 a3)
              ∗ owns (c : Thread nD τ) arg4 fullShare (k0_pay6 i x0 a4)) -∗ K ⟨⟩))
      ⊢ wp frame (wpE (defs₀ (F := F)) Variants.none c none) E (cc0__acc_kernel i arg1 harg1 arg2 harg2 arg3 harg3 arg4 harg4) K := by
  simp only [cc0__acc_kernel_eq_skeleton]; unfold cc0__acc_kernel_skel
  unfold owns
  iintro ⟨⟨%f0, %hf0, H0⟩, ⟨%f1, %hf1, H1⟩, ⟨%f2, %hf2, H2⟩, ⟨%f3, %hf3, H3⟩, Hk⟩
  subst hf0
  subst hf1
  subst hf2
  subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readAt_rW, readAt_rW, readAt_rW]
  iexists _; isplitr
  swap; · iexact H3
  ipureintro
  sl_unfold_run_names
  rw [read_writes_rW, readAt_rW, readAt_rW]

end Cert.Kernel.Hand

end
-- ==== Proof.K.Body0.lean ====
/-
  The first pallas_call's body at every grid point, against its proof data. What each staging buffer holds when the body runs:
  the stripe's buffer has just been fetched (the stripe on the lanes inside the array, anything past them); the embeddings'
  buffer holds the whole bf16 matrix, fetched once; the two accumulators' buffers hold, after the first point, what the point
  before left. At the first point the body resets both accumulators and adds the stripe's contribution; later it adds to
  what it finds. What it leaves does not depend on the lanes past the array, because the body masks them.
-/
import proofs.«167729_g46076409151878_cont_8to1_c_255_12_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in each window's buffer -/

/-- The grid has sixteen points. -/
theorem pt0_lt16 (t : Fin cfg0.N) : t.val < 16 := lt_of_lt_of_eq t.isLt (show cfg0.N = 16 from N_0)

/-- Window 0 is fetched at every point: its buffer holds the stripe's part inside the array, `d` on the lanes past it. -/
theorem before0_0 (c : Dev nD) (t : Fin cfg0.N) (d) :
    (dat0 V c).before 0 t d = win0_0.fill (grid0.coords t) d (iblk0 V c 0 t) := by
  unfold Dat.before; rw [if_pos (fetch0_0 t)]; rfl

/-- Window 1 is fetched at the first point only; its block is the whole array at every point and the body leaves
    it in place: the buffer holds it at every point. -/
theorem before0_1 (c : Dev nD) (t : Fin cfg0.N) (d) : (dat0 V c).before 1 t d = xblk V c t :=
  ((dat0 V c).before_in_eq_fetched 1 rfl (fun _ => rfl) (fun _ _ _ => rfl)
    (fun t => by rw [after0_1]; unfold Dat.blockOf xblk iblk0; rw [A_eq0]; try rfl) t d).trans
    (by unfold Dat.fetched Dat.blockOf xblk iblk0; rw [A_eq0]; try rfl)

/-- Windows 2 and 3 are written back at the last point only: after the first point their buffers hold what the
    body left at the point before. -/
theorem before0_2_B (c : Dev nD) (t : Fin cfg0.N) (h0 : ¬ t.val % 16 = 0) (d) :
    (dat0 V c).before 2 t d = accAt V c (t.val - 1) (Nat.lt_of_le_of_lt (Nat.sub_le _ _) t.isLt) := by
  have hN := pt0_lt16 t
  rw [Dat.before_out_kept _ 2 rfl t (by omega) (Bool.eq_false_iff.mpr fun h => by have := (flush0_2 _).mp h; dsimp only at this; omega)
    (fun _ => rfl) (fun _ _ => rfl)]
  dsimp only [dat0]

theorem before0_3_B (c : Dev nD) (t : Fin cfg0.N) (h0 : ¬ t.val % 16 = 0) (d) :
    (dat0 V c).before 3 t d = sAt V c (t.val - 1) (Nat.lt_of_le_of_lt (Nat.sub_le _ _) t.isLt) := by
  have hN := pt0_lt16 t
  rw [Dat.before_out_kept _ 3 rfl t (by omega) (Bool.eq_false_iff.mpr fun h => by have := (flush0_3 _).mp h; dsimp only at this; omega)
    (fun _ => rfl) (fun _ _ => rfl)]
  dsimp only [dat0]

/-! ## The accumulators, by the case of the point -/

/-- At the first point the accumulators start from the reset values. -/
theorem accAt_A (c : Dev nD) (t : Fin cfg0.N) (h0 : t.val % 16 = 0) :
    accAt V c t.val t.isLt = k0_pay5 (grid0.coords t) (hblk V c t) (xblk V c t) (k0_pay3 (F := F)) := by
  have hN := pt0_lt16 t
  obtain ⟨n, hn⟩ := t
  cases n with
  | zero => exact rfl
  | succ n => exact (by exfalso; dsimp only at h0 hN; omega)

/-- At a later point they continue from what the point before left. -/
theorem accAt_B (c : Dev nD) (t : Fin cfg0.N) (h0 : ¬ t.val % 16 = 0) :
    accAt V c t.val t.isLt = k0_pay5 (grid0.coords t) (hblk V c t) (xblk V c t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

theorem sAt_A (c : Dev nD) (t : Fin cfg0.N) (h0 : t.val % 16 = 0) :
    sAt V c t.val t.isLt = k0_pay6 (grid0.coords t) (hblk V c t) (k0_pay4 (F := F)) := by
  have hN := pt0_lt16 t
  obtain ⟨n, hn⟩ := t
  cases n with
  | zero => exact rfl
  | succ n => exact (by exfalso; dsimp only at h0 hN; omega)

theorem sAt_B (c : Dev nD) (t : Fin cfg0.N) (h0 : ¬ t.val % 16 = 0) :
    sAt V c t.val t.isLt = k0_pay6 (grid0.coords t) (hblk V c t) (sAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body's condition, in closed form -/

/-- The reset's condition at grid coordinates `i`: the program index is zero. -/
abbrev cond0' (i : grid0.Coords) : Prop :=
  Scalar.cmpi .ne (Scalar.extui (Scalar.cmpi .eq (BitVec.ofNat 32 (i 0).val) 0#32)) 0#32 = 1#1

/-- It holds at the first point only. -/
theorem hcond0' : ∀ t : Fin cfg0.N, cond0' (grid0.coords t) ↔ t.val % 16 = 0 :=
  (by decide +kernel : ∀ t : Fin grid0.N, cond0' (grid0.coords t) ↔ t.val % 16 = 0)

/-! ## The body obligation -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: window 0's buffer stated on the part inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

section Obligation

variable (hrunA : ∀ (c : Dev nD) (E : Set ℕ) (i : grid0.Coords) (hc : cond0' i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (K : PUnit → sProp (MT nD τ sig Unit (Elt F) ℕ (Pipeline.UD sig nD τ) ℕ)),
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay5 i x0 x1 (k0_pay3 (F := F)))
            ∗ owns (c : Thread nD τ) arg4 fullShare (k0_pay6 i x0 (k0_pay4 (F := F)))) -∗ K ⟨⟩))
      ⊢ wp frame (wpE (defs₀ (F := F)) Variants.none c none) E (cc0__acc_kernel i arg1 harg1 arg2 harg2 arg3 harg3 arg4 harg4) K)
  (hrunB : ∀ (c : Dev nD) (E : Set ℕ) (i : grid0.Coords) (hc : ¬ cond0' i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (a3 : Vec F S10000x128 .f32) (a4 : Vec F S10000x128 .bf16) (K : PUnit → sProp (MT nD τ sig Unit (Elt F) ℕ (Pipeline.UD sig nD τ) ℕ)),
    iprop(owns (c : Thread nD τ) arg1 fullShare x0 ∗ owns (c : Thread nD τ) arg2 fullShare x1
        ∗ owns (c : Thread nD τ) arg3 fullShare a3 ∗ owns (c : Thread nD τ) arg4 fullShare a4
        ∗ (iprop(owns (c : Thread nD τ) arg1 fullShare x0 ∗ owns (c : Thread nD τ) arg2 fullShare x1
            ∗ owns (c : Thread nD τ) arg3 fullShare (k0_pay5 i x0 x1 a3)
            ∗ owns (c : Thread nD τ) arg4 fullShare (k0_pay6 i x0 a4)) -∗ K ⟨⟩))
      ⊢ wp frame (wpE (defs₀ (F := F)) Variants.none c none) E (cc0__acc_kernel i arg1 harg1 arg2 harg2 arg3 harg3 arg4 harg4) K)
  (hpay5 : ∀ (t : Fin cfg0.N) (d d' : S10000x128.Idx → Elt F .f32) (g : (win0_0.xblock (grid0.coords t)).Idx → Elt F .f32)
    (x : Vec F S10000x128 .bf16) (a : Vec F S10000x128 .f32),
    k0_pay5 (F := F) (grid0.coords t) (win0_0.fill (grid0.coords t) d g) x a = k0_pay5 (grid0.coords t) (win0_0.fill (grid0.coords t) d' g) x a)
  (hpay6 : ∀ (t : Fin cfg0.N) (d d' : S10000x128.Idx → Elt F .f32) (g : (win0_0.xblock (grid0.coords t)).Idx → Elt F .f32)
    (s : Vec F S10000x128 .bf16),
    k0_pay6 (F := F) (grid0.coords t) (win0_0.fill (grid0.coords t) d g) s = k0_pay6 (grid0.coords t) (win0_0.fill (grid0.coords t) d' g) s)

include hrunA hrunB hpay5 hpay6

/-- The body at any point: window 0's buffer arrives holding the stripe filled out with some `d` past the array,
    window 1's the embeddings; at the first point the accumulators' buffers hold anything and the body resets them,
    at a later point they hold what the point before left. What the body computes does not read the lanes past the
    array (`hpay5`, `hpay6`), so the accumulators are those of the stripe filled out with the zero word. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_1, after0_2, after0_3]
  have hx : win0_0.cut (grid0.coords t) ((dat0 V c).after 0 t) = iblk0 V c 0 t := by
    rw [after0_0]; unfold hblk; exact win0_0.cut_fill _ _ _
  rw [hx]
  by_cases h0 : t.val % 16 = 0
  · rw [accAt_A V c t h0, sAt_A V c t h0]
    iintro ⟨HΦ, Ho, ⟨%d0, H0⟩, ⟨%d1, H1⟩, ⟨%d2, H2⟩, ⟨%d3, H3⟩⟩
    rw [before0_0 V c t d0, before0_1 V c t d1]
    have e5 : k0_pay5 (grid0.coords t) (hblk V c t) (xblk V c t) (k0_pay3 (F := F))
        = k0_pay5 (grid0.coords t) (win0_0.fill (grid0.coords t) d0 (iblk0 V c 0 t)) (xblk V c t) (k0_pay3 (F := F)) :=
      hpay5 t _ d0 _ _ _
    have e6 : k0_pay6 (grid0.coords t) (hblk V c t) (k0_pay4 (F := F))
        = k0_pay6 (grid0.coords t) (win0_0.fill (grid0.coords t) d0 (iblk0 V c 0 t)) (k0_pay4 (F := F)) :=
      hpay6 t _ d0 _ _
    rw [e5, e6]
    iapply (hrunA c Set.univ (grid0.coords t) ((hcond0' t).mpr h0) _ _ _ _ _ _ _ _
      (win0_0.fill (grid0.coords t) d0 (iblk0 V c 0 t)) (xblk V c t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    iexact H3
  · rw [accAt_B V c t h0, sAt_B V c t h0]
    iintro ⟨HΦ, Ho, ⟨%d0, H0⟩, ⟨%d1, H1⟩, ⟨%d2, H2⟩, ⟨%d3, H3⟩⟩
    rw [before0_0 V c t d0, before0_1 V c t d1, before0_2_B V c t h0 d2, before0_3_B V c t h0 d3]
    have e5 : ∀ a, k0_pay5 (grid0.coords t) (hblk V c t) (xblk V c t) a
        = k0_pay5 (grid0.coords t) (win0_0.fill (grid0.coords t) d0 (iblk0 V c 0 t)) (xblk V c t) a :=
      fun a => hpay5 t _ d0 _ _ a
    have e6 : ∀ s, k0_pay6 (grid0.coords t) (hblk V c t) s
        = k0_pay6 (grid0.coords t) (win0_0.fill (grid0.coords t) d0 (iblk0 V c 0 t)) s :=
      fun s => hpay6 t _ d0 _ s
    rw [e5, e6]
    iapply (hrunB c Set.univ (grid0.coords t) (fun h => h0 ((hcond0' t).mp h)) _ _ _ _ _ _ _ _
      (win0_0.fill (grid0.coords t) d0 (iblk0 V c 0 t)) (xblk V c t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    iexact H3

/-- The library's body obligation (the loose form: window 0's blocks overhang the array), at every point. -/
theorem body_obligation0_of (c : Dev nD) :
    BodyObligationLoose (dat0 (F := F) V c) (defs₀ (F := F)) Variants.none () Set.univ := fun t => by
  rw [bigSep_W0, bigSep_W0]
  exact sound_body0 V hrunA hrunB hpay5 hpay6 c t

end Obligation

end Cert.Kernel.Hand

end
-- ==== Proof.K.Body1.lean ====
/-
  The second pallas_call's body: it loads a block of 2000 rows of each accumulator, and stores the first over the row sums of
  the second (a zero sum replaced by one) over the whole output block. Both input buffers have just been fetched at every
  point; the output buffer may hold anything.
-/
import proofs.«167729_g46076409151878_cont_8to1_c_255_12_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

/-! ## Region 1: the body's triple -/

theorem hz1 : (![0, 0] : Fin 2 → Nat) = fun _ => 0 := by
  funext a; fin_cases a <;> rfl

set_option maxHeartbeats 1000000 in
/-- The body on whole staging memrefs, the inputs' at their contents and the output's at anything, runs to the
    continuation holding the inputs' as they were and the output's at the quotient of the two inputs. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole) (arg3 : Memref sig .tc .vmem S2000x128 .f32) (harg3 : arg3.IsWhole)
    (x0 : Vec F S2000x128 .f32) (x1 : Vec F S2000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x1 x0)) -∗ K ⟨⟩))
      ⊢ wp frame (wpE (defs₀ (F := F)) Variants.none c none) E (cc1__norm_kernel i arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have e1 : View.readAt (Elt F) arg2.view (Rect.unit (s := S2000x128) ![0, 0] S2000x128.size inb_S2000x128_S2000x128_0_0).toLoadRect f1
      = View.read (Elt F) arg2.view f1 := View.ld_unit_zero (S := S2000x128) hz1 _ _
  have e0 : View.readAt (Elt F) arg1.view (Rect.unit (s := S2000x128) ![0, 0] S2000x128.size inb_S2000x128_S2000x128_0_0).toLoadRect f0
      = View.read (Elt F) arg1.view f0 := View.ld_unit_zero (S := S2000x128) hz1 _ _
  refine (View.read_writes_eq_canon _ _ _ ?_).trans ?_
  · intro y
    exact ⟨_, List.mem_singleton_self _, View.mem_set_unit_zero (S := S2000x128) hz1 inb_S2000x128_S2000x128_0_0 y⟩
  · rw [View.canon_unit_zero hz1, e1, e0]

/-! ## Region 1: the input windows' buffers at a point -/

/-- Input window 0's current staging buffer holds its block at every point: fetched at every point, uncut, never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## Region 1: the body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Frame.lean ====
/-
  The two body obligations assembled — region 0's from the body's two runs and the mask lemmas, region 1's as proved —, and
  with them the run of @main and the frame: every weakly fair execution terminates, nothing faulting, and leaves both argument
  arrays as launched.
-/
import proofs.«167729_g46076409151878_cont_8to1_c_255_12_alg».proof.Proof.K.Launch
import proofs.«167729_g46076409151878_cont_8to1_c_255_12_alg».proof.Proof.K.Mask
import proofs.«167729_g46076409151878_cont_8to1_c_255_12_alg».proof.Proof.K.Run0
import proofs.«167729_g46076409151878_cont_8to1_c_255_12_alg».proof.Proof.K.Body0
import proofs.«167729_g46076409151878_cont_8to1_c_255_12_alg».proof.Proof.K.Body1

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat BodyObligation BodyObligationLoose)

variable {F : FTy → Type} [FloatOps F]

/-- Region 0's body obligation at any entry contents. -/
theorem body0 (V : (c : Dev nD) → (b : Ref sig .tc) → Buf (Elt F) ((c : Thread nD τ).loc b)) (c : Dev nD) :
    BodyObligationLoose (dat0 (F := F) V c) (defs₀ (F := F)) Variants.none () Set.univ :=
  body_obligation0_of V sound_kernel0_A sound_kernel0_B pay5_fill pay6_fill c

/-- Region 1's. -/
theorem body1 (V : (c : Dev nD) → (b : Ref sig .tc) → Buf (Elt F) ((c : Thread nD τ).loc b)) (c : Dev nD) :
    BodyObligationLoose (dat1 (F := F) V c) (defs₀ (F := F)) Variants.none () Set.univ :=
  (body_obligation1 V c).loose

variable (m : (ℓ : Loc nD τ sig) → Buf (Elt F) ℓ) (ρ : Dev nD → PrngReg)

/-- The run: every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  run m (fun c => body0 (V1 m) c) (fun c => body1 (V2 m) c) ρ

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m (fun c => body0 (V1 m) c) (fun c => body1 (V2 m) c) ρ

end Cert.Kernel.Hand

end
-- ==== Proof.KI.Data.lean ====
/-
  The proof data of the two pallas_calls, over the contents `V` of the TensorCore's buffers when a region is entered.

  Region 0 (16 grid points, one per stripe of 128 tag columns). Window 0 stages the stripe of the incidence matrix; its
  last block overhangs the array, so the staging buffer's lanes past the array hold nothing that is named: `hblk` is the
  stripe with those lanes filled with the zero word (the body masks them before it uses them, so the filler is never read).
  Window 1 is the whole bf16 embedding matrix. Windows 2 and 3 are the two accumulators, kept in their staging buffers over
  the grid and written back after the last point: after point n they hold `accAt n` and `sAt n`, each the body's payload of
  the point's stripe over what the point before left, from the zero fill at the first point.
  Region 1 (5 blocks of 2000 rows): the output block is the body's payload of the two input blocks.
  Then the buffers' contents at @main's four boundaries, each region's arrays at what its write-backs leave.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## Region 0 -/

/-- Window `w`'s block at point `t` (its part inside the array), read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Stripe `t` of the incidence matrix as a full 10000 × 128 block: the part inside the array, the zero word on the lanes past it. -/
def hblk (c : Dev nD) (t : Fin cfg0.N) : Vec F S10000x128 .f32 :=
  win0_0.fill (grid0.coords t) (fun _ => Scalar.ofBits .f32 0#32) (iblk0 V c 0 t)

/-- The bf16 embedding matrix (window 1's block is the whole array at every point). -/
def xblk (c : Dev nD) (t : Fin cfg0.N) : Vec F S10000x128 .bf16 := iblk0 V c 1 t

/-- The first accumulator after point `n`. -/
def accAt (c : Dev nD) : (n : ℕ) → n < cfg0.N → Vec F S10000x128 .f32
  | 0, hn => k0_pay5 (grid0.coords ⟨0, hn⟩) (hblk V c ⟨0, hn⟩) (xblk V c ⟨0, hn⟩) (k0_pay3 (F := F))
  | n + 1, hn => k0_pay5 (grid0.coords ⟨n + 1, hn⟩) (hblk V c ⟨n + 1, hn⟩) (xblk V c ⟨n + 1, hn⟩) (accAt c n (Nat.lt_of_succ_lt hn))

/-- The second accumulator after point `n`. -/
def sAt (c : Dev nD) : (n : ℕ) → n < cfg0.N → Vec F S10000x128 .bf16
  | 0, hn => k0_pay6 (grid0.coords ⟨0, hn⟩) (hblk V c ⟨0, hn⟩) (k0_pay4 (F := F))
  | n + 1, hn => k0_pay6 (grid0.coords ⟨n + 1, hn⟩) (hblk V c ⟨n + 1, hn⟩) (sAt c n (Nat.lt_of_succ_lt hn))

/-- The proof data of pipeline 0 on core `c`. -/
def dat0 (c : Dev nD) : Dat τ (Elt F) Unit ℕ (Pipeline.UD sig nD τ) ℕ cfg0 c where
  A w := V c (Pipeline.arrRef spec0 w)
  after w t := match w with
    | ⟨0, _⟩ => hblk V c t
    | ⟨1, _⟩ => xblk V c t
    | ⟨2, _⟩ => accAt V c t.val t.isLt
    | ⟨3, _⟩ => sAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = hblk V c t := by dsimp only [dat0]
theorem after0_1 (c : Dev nD) (t : Fin cfg0.N) : (dat0 V c).after 1 t = xblk V c t := by dsimp only [dat0]
theorem after0_2 (c : Dev nD) (t : Fin cfg0.N) : (dat0 V c).after 2 t = accAt V c t.val t.isLt := by dsimp only [dat0]
theorem after0_3 (c : Dev nD) (t : Fin cfg0.N) : (dat0 V c).after 3 t = sAt V c t.val t.isLt := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer at point `t`: the quotient of the accumulator's block by the degrees. -/
def outAt1 (c : Dev nD) (t : Fin cfg1.N) : Vec F S2000x128 .f32 := k1_pay1 (iblk1 V c 1 t) (iblk1 V c 0 t)

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

end Regions

/-! ## The buffers' contents at @main's boundaries -/

variable (m : (ℓ : Loc nD τ sig) → Buf (Elt F) ℓ)

/-- Core `c`'s buffers at launch. -/
abbrev W0 : Dev nD → Valuation τ sig (Elt F) := fun c b => m ((c : Dev nD), b)
/-- After the host stretch (the embeddings converted to bf16): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c

end Cert.KernelIdeal.Hand

end
-- ==== Proof.KI.Launch.lean ====
/-
  The launch: @main is a host stretch (the embeddings converted to bf16), then the two pallas_calls. Each region is entered
  from every unscoped buffer held at the boundary's contents, splits its windows' arrays out of them, runs its pipeline against
  its proof data, and puts the arrays back at what the write-backs left; the generator register and the core's (empty) debt
  ride along. Given the two body obligations, every weakly fair execution from zero counters terminates without a fault,
  with every unscoped buffer at the last boundary's contents `W3`.
-/
import proofs.«167729_g46076409151878_cont_8to1_c_255_12_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, at nothing. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor

/-- The host stretch as a segment over the unscoped references from the launch contents. -/
abbrev seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W3 m c) ∗ ∃ r, prngReg c r)

variable (hb0 : ∀ c : Dev nD, BodyObligationLoose (dat0 (F := F) (V1 m) c) (defs₀ (F := F)) Variants.none () Set.univ)
  (hb1 : ∀ c : Dev nD, BodyObligationLoose (dat1 (F := F) (V2 m) c) (defs₀ (F := F)) Variants.none () Set.univ)

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := hb0 c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (seg0 m), .region (reg0 m hb0), .region (reg1 m hb1) ]

include hb0 hb1 in
set_option backward.isDefEq.respectTransparency.types false in
/-- THE RUN: from any memory with zero counters every weakly fair execution of @main terminates, nothing faulting, and every
    final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m hb0 hb1)
    (fun c Q => by rw [main_segs adm (pdats m) () 𝒱₀ L lv (seg0 m) (reg0 m hb0) (reg1 m hb1) rfl c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := StableHlo.after_of_writes_sub hostOps0 _ (W := [main_call0_v0]) (by
        simp only [List.Forall]; exact (by simp only [StableHlo.nullary_writes, StableHlo.unary_writes, StableHlo.binary_writes, Finset.singleton_subset_iff, List.mem_toFinset]; exact List.mem_map_of_mem (by decide))) (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := StableHlo.after_of_writes_sub hostOps0 _ (W := [main_call0_v0]) (by
        simp only [List.Forall]; exact (by simp only [StableHlo.nullary_writes, StableHlo.unary_writes, StableHlo.binary_writes, Finset.singleton_subset_iff, List.mem_toFinset]; exact List.mem_map_of_mem (by decide))) (by decide)

include hb0 hb1 in
/-- THE FRAME, given the two body obligations. -/
theorem frame_of (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_main_arg0 m c),
       (h c _ (mem_uc main_arg1 (by decide))).trans (W3_main_arg1 m c)⟩)
    (run m hb0 hb1 ρ)

end Cert.KernelIdeal.Hand

end
-- ==== Proof.KI.Mask.lean ====
/-
  The body keeps lane l of stripe t only where l < 2000 − 128 t (a signed comparison of 32-bit words that never wraps for
  t < 16) and puts zero elsewhere. A lane the clipped fetch did not move lies at or past that bound, so the masked stripe —
  and with it everything the body computes — is the same whatever those lanes hold.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167729_g46076409151878_cont_8to1_c_255_12_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lane mask of custom_call 0

The body keeps lane `l` of stripe `n` where `l < 2000 - 128 n` and puts the zero word elsewhere, so the
lanes past the array's end — the ones a cut fetch does not move — never reach the arithmetic. -/

/-- The mask bit at coordinates `i` and index `j`: whether lane `j 1` of stripe `i 0` lies inside the array. -/
def maskBit (i : grid0.Coords) (j : S10000x128.Idx) : BitVec 1 :=
  IntOp.cmpi .slt (BitVec.ofNat 32 (0 * 128 + (j 1).val)) (Scalar.subi 2000#32 (Scalar.muli (BitVec.ofNat 32 (i 0).val) 128#32))

/-- The masked stripe at an index. -/
theorem pay1_apply (i : grid0.Coords) (v0 : Vec F S10000x128 .f32) (j : S10000x128.Idx) :
    k0_pay1 i v0 j = Scalar.select (maskBit i j) (v0 j) (Scalar.ofBits .f32 0x00000000#32) := rfl

/-- A lane the cut fetch of stripe `n` does not move is masked off. -/
theorem mask_off_num : ∀ (n : Fin 16) (l : Fin 128),
    ¬ l.val < (Pipeline.Clip.of (BitVec.ofNat 32 n.val).toNat 128 2000).extent 128 →
    IntOp.cmpi .slt (BitVec.ofNat 32 (0 * 128 + l.val)) (Scalar.subi 2000#32 (Scalar.muli (BitVec.ofNat 32 n.val) 128#32)) = 0#1 := by
  decide +kernel

/-- An index the fetch at `i` does not move is masked off. -/
theorem maskBit_of_not_moved (i : grid0.Coords) (j : S10000x128.Idx) (h : ¬ win0_0.moved i j = true) : maskBit i j = 0#1 := by
  rw [Window.moved_iff] at h
  have h1 : ¬ (j 1).val < win0_0.xsize i 1 := by
    intro h1; apply h; intro a
    match a with
    | ⟨0, _⟩ => exact (j 0).isLt
    | ⟨1, _⟩ => exact h1
  exact mask_off_num ⟨(i 0).val, (i 0).isLt⟩ ⟨(j 1).val, (j 1).isLt⟩ h1

/-- The masked stripe reads its argument only at the indices the mask keeps. -/
theorem pay1_congr (i : grid0.Coords) (v v' : Vec F S10000x128 .f32) (h : ∀ j, maskBit i j = 1 → v j = v' j) :
    k0_pay1 i v = k0_pay1 i v' := by
  funext j
  rw [pay1_apply, pay1_apply]
  unfold Scalar.select
  by_cases hb : maskBit i j = 1
  · rw [if_pos hb, if_pos hb]; exact h j hb
  · rw [if_neg hb, if_neg hb]

/-- the masked stripe does not see the filler -/
theorem pay1_fill (t : Fin cfg0.N) (d d' : S10000x128.Idx → Elt F .f32) (g : (win0_0.xblock (grid0.coords t)).Idx → Elt F .f32) :
    k0_pay1 (F := F) (grid0.coords t) (win0_0.fill (grid0.coords t) d g) = k0_pay1 (grid0.coords t) (win0_0.fill (grid0.coords t) d' g) := by
  apply pay1_congr
  intro j hb
  by_cases hm : win0_0.moved (grid0.coords t) j = true
  · unfold Window.fill; rw [dif_pos hm, dif_pos hm]
  · rw [maskBit_of_not_moved _ _ hm] at hb; exact absurd hb (by decide)

theorem pay5_fill (t : Fin cfg0.N) (d d' : S10000x128.Idx → Elt F .f32) (g : (win0_0.xblock (grid0.coords t)).Idx → Elt F .f32)
    (x : Vec F S10000x128 .bf16) (a : Vec F S10000x128 .f32) :
    k0_pay5 (F := F) (grid0.coords t) (win0_0.fill (grid0.coords t) d g) x a = k0_pay5 (grid0.coords t) (win0_0.fill (grid0.coords t) d' g) x a := by
  unfold k0_pay5 k0_pay2; rw [pay1_fill t d d' g]

theorem pay6_fill (t : Fin cfg0.N) (d d' : S10000x128.Idx → Elt F .f32) (g : (win0_0.xblock (grid0.coords t)).Idx → Elt F .f32)
    (s : Vec F S10000x128 .bf16) :
    k0_pay6 (F := F) (grid0.coords t) (win0_0.fill (grid0.coords t) d g) s = k0_pay6 (grid0.coords t) (win0_0.fill (grid0.coords t) d' g) s := by
  unfold k0_pay6 k0_pay2; rw [pay1_fill t d d' g]

end Cert.KernelIdeal.Hand

end
-- ==== Proof.KI.Run0.lean ====
/-
  The first pallas_call's body run on whole staging buffers, in its two control cases: at the first grid point both
  accumulators are reset to zero and then added to; at every later point they are added to as found. Every load and store is
  of a whole buffer, so a load reads the buffer's contents and a store leaves exactly its payload.
-/
import proofs.«167729_g46076409151878_cont_8to1_c_255_12_alg».proof.Proof.KI.Data
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first point's branch condition, as the printed body computes it. -/
abbrev cond0 (i : grid0.Coords) : Prop := Scalar.cmpi .ne (Scalar.extui (Scalar.cmpi .eq (BitVec.ofNat 32 (i 0).val) 0#32)) 0#32 = 1#1

/-- The zero offsets, spelt as the body's accesses spell them. -/
private theorem hz00 : (![0, 0] : Fin 2 → Nat) = fun _ => 0 := by funext a; fin_cases a <;> rfl

/-- The rectangle of every access of the body: the whole buffer. -/
private abbrev rW : Rect S10000x128 := Rect.unit (s := S10000x128) ![0, 0] S10000x128.size Facts₀.inb_S10000x128_S10000x128_0_0

/-- A list of stores whose last is of the whole buffer covers it. -/
private theorem cover_rW {e : EltTy} (p : rW.shape.Idx → Elt F e) (L : List (View.Piece (Elt F) S10000x128 e)) (y : S10000x128.Idx) :
    ∃ pc ∈ ((⟨rW, p⟩ : View.Piece (Elt F) S10000x128 e) :: L), y ∈ pc.1.set :=
  ⟨_, List.mem_cons_self, View.mem_set_unit_zero (S := S10000x128) hz00 Facts₀.inb_S10000x128_S10000x128_0_0 y⟩

/-- What a list of stores whose last is of the whole buffer leaves: the last payload. -/
private theorem read_writes_rW {sp : Space} {e : EltTy} (v : View sig .tc sp S10000x128 e) (f : v.ty.Contents (Elt F))
    (p : rW.shape.Idx → Elt F e) (L : List (View.Piece (Elt F) S10000x128 e)) :
    v.read (Elt F) (v.writes (Elt F) f ((⟨rW, p⟩ : View.Piece (Elt F) S10000x128 e) :: L)) = p := by
  rw [View.read_writes_eq_canon v f _ (cover_rW p L)]
  exact View.canon_cons_unit_zero (S := S10000x128) hz00 Facts₀.inb_S10000x128_S10000x128_0_0 p L

/-- A load of the whole buffer reads its contents. -/
private theorem readAt_rW {sp : Space} {e : EltTy} (v : View sig .tc sp S10000x128 e) (f : v.ty.Contents (Elt F)) :
    v.readAt (Elt F) rW.toLoadRect f = v.read (Elt F) f := by
  rw [View.readAt_eq_ld]
  exact View.ld_unit_zero (S := S10000x128) hz00 Facts₀.inb_S10000x128_S10000x128_0_0 _

/-- A load of the whole buffer after one store of the whole buffer reads the payload stored. -/
private theorem readCov_rW {sp : Space} {e : EltTy} (v : View sig .tc sp S10000x128 e) (p : rW.shape.Idx → Elt F e) :
    v.readCov [(⟨rW, p⟩ : View.Piece (Elt F) S10000x128 e)] rW.toLoadRect = p :=
  View.readCov_unit_zero v hz00 Facts₀.inb_S10000x128_S10000x128_0_0 p

set_option maxHeartbeats 1000000 in
/-- FIRST POINT (the branch taken): both outputs are reset, then accumulated into. -/
theorem sound_kernel0_A (c : Dev nD) (E : Set ℕ) (i : grid0.Coords) (hc : cond0 i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
              ∗ owns (c : Thread nD τ) arg3 fullShare (k0_pay5 i x0 x1 (k0_pay3 (F := F)))
              ∗ owns (c : Thread nD τ) arg4 fullShare (k0_pay6 i x0 (k0_pay4 (F := F)))) -∗ K ⟨⟩))
      ⊢ wp frame (wpE (defs₀ (F := F)) Variants.none c none) E (cc0__acc_kernel i arg1 harg1 arg2 harg2 arg3 harg3 arg4 harg4) K := by
  simp only [cc0__acc_kernel_eq_skeleton]; unfold cc0__acc_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readCov_rW, readAt_rW, readAt_rW]
  iexists _; isplitr
  swap; · iexact H3
  ipureintro
  sl_unfold_run_names
  rw [read_writes_rW, readCov_rW, readAt_rW]

set_option maxHeartbeats 1000000 in
/-- LATER POINTS (the branch not taken): both outputs hold what the point before left and are accumulated into. -/
theorem sound_kernel0_B (c : Dev nD) (E : Set ℕ) (i : grid0.Coords) (hc : ¬ cond0 i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (a3 : Vec F S10000x128 .f32) (a4 : Vec F S10000x128 .bf16) (K : PUnit → sProp 𝕄) :
    iprop(owns (c : Thread nD τ) arg1 fullShare x0 ∗ owns (c : Thread nD τ) arg2 fullShare x1
        ∗ owns (c : Thread nD τ) arg3 fullShare a3 ∗ owns (c : Thread nD τ) arg4 fullShare a4
        ∗ (iprop(owns (c : Thread nD τ) arg1 fullShare x0 ∗ owns (c : Thread nD τ) arg2 fullShare x1
              ∗ owns (c : Thread nD τ) arg3 fullShare (k0_pay5 i x0 x1 a3)
              ∗ owns (c : Thread nD τ) arg4 fullShare (k0_pay6 i x0 a4)) -∗ K ⟨⟩))
      ⊢ wp frame (wpE (defs₀ (F := F)) Variants.none c none) E (cc0__acc_kernel i arg1 harg1 arg2 harg2 arg3 harg3 arg4 harg4) K := by
  simp only [cc0__acc_kernel_eq_skeleton]; unfold cc0__acc_kernel_skel
  unfold owns
  iintro ⟨⟨%f0, %hf0, H0⟩, ⟨%f1, %hf1, H1⟩, ⟨%f2, %hf2, H2⟩, ⟨%f3, %hf3, H3⟩, Hk⟩
  subst hf0
  subst hf1
  subst hf2
  subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readAt_rW, readAt_rW, readAt_rW]
  iexists _; isplitr
  swap; · iexact H3
  ipureintro
  sl_unfold_run_names
  rw [read_writes_rW, readAt_rW, readAt_rW]

end Cert.KernelIdeal.Hand

end
-- ==== Proof.KI.Body0.lean ====
/-
  The first pallas_call's body at every grid point, against its proof data. What each staging buffer holds when the body runs:
  the stripe's buffer has just been fetched (the stripe on the lanes inside the array, anything past them); the embeddings'
  buffer holds the whole bf16 matrix, fetched once; the two accumulators' buffers hold, after the first point, what the point
  before left. At the first point the body resets both accumulators and adds the stripe's contribution; later it adds to
  what it finds. What it leaves does not depend on the lanes past the array, because the body masks them.
-/
import proofs.«167729_g46076409151878_cont_8to1_c_255_12_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in each window's buffer -/

/-- The grid has sixteen points. -/
theorem pt0_lt16 (t : Fin cfg0.N) : t.val < 16 := lt_of_lt_of_eq t.isLt (show cfg0.N = 16 from N_0)

/-- Window 0 is fetched at every point: its buffer holds the stripe's part inside the array, `d` on the lanes past it. -/
theorem before0_0 (c : Dev nD) (t : Fin cfg0.N) (d) :
    (dat0 V c).before 0 t d = win0_0.fill (grid0.coords t) d (iblk0 V c 0 t) := by
  unfold Dat.before; rw [if_pos (fetch0_0 t)]; rfl

/-- Window 1 is fetched at the first point only; its block is the whole array at every point and the body leaves
    it in place: the buffer holds it at every point. -/
theorem before0_1 (c : Dev nD) (t : Fin cfg0.N) (d) : (dat0 V c).before 1 t d = xblk V c t :=
  ((dat0 V c).before_in_eq_fetched 1 rfl (fun _ => rfl) (fun _ _ _ => rfl)
    (fun t => by rw [after0_1]; unfold Dat.blockOf xblk iblk0; rw [A_eq0]; try rfl) t d).trans
    (by unfold Dat.fetched Dat.blockOf xblk iblk0; rw [A_eq0]; try rfl)

/-- Windows 2 and 3 are written back at the last point only: after the first point their buffers hold what the
    body left at the point before. -/
theorem before0_2_B (c : Dev nD) (t : Fin cfg0.N) (h0 : ¬ t.val % 16 = 0) (d) :
    (dat0 V c).before 2 t d = accAt V c (t.val - 1) (Nat.lt_of_le_of_lt (Nat.sub_le _ _) t.isLt) := by
  have hN := pt0_lt16 t
  rw [Dat.before_out_kept _ 2 rfl t (by omega) (Bool.eq_false_iff.mpr fun h => by have := (flush0_2 _).mp h; dsimp only at this; omega)
    (fun _ => rfl) (fun _ _ => rfl)]
  dsimp only [dat0]

theorem before0_3_B (c : Dev nD) (t : Fin cfg0.N) (h0 : ¬ t.val % 16 = 0) (d) :
    (dat0 V c).before 3 t d = sAt V c (t.val - 1) (Nat.lt_of_le_of_lt (Nat.sub_le _ _) t.isLt) := by
  have hN := pt0_lt16 t
  rw [Dat.before_out_kept _ 3 rfl t (by omega) (Bool.eq_false_iff.mpr fun h => by have := (flush0_3 _).mp h; dsimp only at this; omega)
    (fun _ => rfl) (fun _ _ => rfl)]
  dsimp only [dat0]

/-! ## The accumulators, by the case of the point -/

/-- At the first point the accumulators start from the reset values. -/
theorem accAt_A (c : Dev nD) (t : Fin cfg0.N) (h0 : t.val % 16 = 0) :
    accAt V c t.val t.isLt = k0_pay5 (grid0.coords t) (hblk V c t) (xblk V c t) (k0_pay3 (F := F)) := by
  have hN := pt0_lt16 t
  obtain ⟨n, hn⟩ := t
  cases n with
  | zero => exact rfl
  | succ n => exact (by exfalso; dsimp only at h0 hN; omega)

/-- At a later point they continue from what the point before left. -/
theorem accAt_B (c : Dev nD) (t : Fin cfg0.N) (h0 : ¬ t.val % 16 = 0) :
    accAt V c t.val t.isLt = k0_pay5 (grid0.coords t) (hblk V c t) (xblk V c t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

theorem sAt_A (c : Dev nD) (t : Fin cfg0.N) (h0 : t.val % 16 = 0) :
    sAt V c t.val t.isLt = k0_pay6 (grid0.coords t) (hblk V c t) (k0_pay4 (F := F)) := by
  have hN := pt0_lt16 t
  obtain ⟨n, hn⟩ := t
  cases n with
  | zero => exact rfl
  | succ n => exact (by exfalso; dsimp only at h0 hN; omega)

theorem sAt_B (c : Dev nD) (t : Fin cfg0.N) (h0 : ¬ t.val % 16 = 0) :
    sAt V c t.val t.isLt = k0_pay6 (grid0.coords t) (hblk V c t) (sAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body's condition, in closed form -/

/-- The reset's condition at grid coordinates `i`: the program index is zero. -/
abbrev cond0' (i : grid0.Coords) : Prop :=
  Scalar.cmpi .ne (Scalar.extui (Scalar.cmpi .eq (BitVec.ofNat 32 (i 0).val) 0#32)) 0#32 = 1#1

/-- It holds at the first point only. -/
theorem hcond0' : ∀ t : Fin cfg0.N, cond0' (grid0.coords t) ↔ t.val % 16 = 0 :=
  (by decide +kernel : ∀ t : Fin grid0.N, cond0' (grid0.coords t) ↔ t.val % 16 = 0)

/-! ## The body obligation -/

/-- What the body is called with at point `t` (the library's obligation, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: window 0's buffer stated on the part inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

section Obligation

variable (hrunA : ∀ (c : Dev nD) (E : Set ℕ) (i : grid0.Coords) (hc : cond0' i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (K : PUnit → sProp (MT nD τ sig Unit (Elt F) ℕ (Pipeline.UD sig nD τ) ℕ)),
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay5 i x0 x1 (k0_pay3 (F := F)))
            ∗ owns (c : Thread nD τ) arg4 fullShare (k0_pay6 i x0 (k0_pay4 (F := F)))) -∗ K ⟨⟩))
      ⊢ wp frame (wpE (defs₀ (F := F)) Variants.none c none) E (cc0__acc_kernel i arg1 harg1 arg2 harg2 arg3 harg3 arg4 harg4) K)
  (hrunB : ∀ (c : Dev nD) (E : Set ℕ) (i : grid0.Coords) (hc : ¬ cond0' i)
    (arg1 : Memref sig .tc .vmem S10000x128 .f32) (harg1 : arg1.IsWhole) (arg2 : Memref sig .tc .vmem S10000x128 .bf16) (harg2 : arg2.IsWhole)
    (arg3 : Memref sig .tc .vmem S10000x128 .f32) (harg3 : arg3.IsWhole) (arg4 : Memref sig .tc .vmem S10000x128 .bf16) (harg4 : arg4.IsWhole)
    (x0 : Vec F S10000x128 .f32) (x1 : Vec F S10000x128 .bf16) (a3 : Vec F S10000x128 .f32) (a4 : Vec F S10000x128 .bf16) (K : PUnit → sProp (MT nD τ sig Unit (Elt F) ℕ (Pipeline.UD sig nD τ) ℕ)),
    iprop(owns (c : Thread nD τ) arg1 fullShare x0 ∗ owns (c : Thread nD τ) arg2 fullShare x1
        ∗ owns (c : Thread nD τ) arg3 fullShare a3 ∗ owns (c : Thread nD τ) arg4 fullShare a4
        ∗ (iprop(owns (c : Thread nD τ) arg1 fullShare x0 ∗ owns (c : Thread nD τ) arg2 fullShare x1
            ∗ owns (c : Thread nD τ) arg3 fullShare (k0_pay5 i x0 x1 a3)
            ∗ owns (c : Thread nD τ) arg4 fullShare (k0_pay6 i x0 a4)) -∗ K ⟨⟩))
      ⊢ wp frame (wpE (defs₀ (F := F)) Variants.none c none) E (cc0__acc_kernel i arg1 harg1 arg2 harg2 arg3 harg3 arg4 harg4) K)
  (hpay5 : ∀ (t : Fin cfg0.N) (d d' : S10000x128.Idx → Elt F .f32) (g : (win0_0.xblock (grid0.coords t)).Idx → Elt F .f32)
    (x : Vec F S10000x128 .bf16) (a : Vec F S10000x128 .f32),
    k0_pay5 (F := F) (grid0.coords t) (win0_0.fill (grid0.coords t) d g) x a = k0_pay5 (grid0.coords t) (win0_0.fill (grid0.coords t) d' g) x a)
  (hpay6 : ∀ (t : Fin cfg0.N) (d d' : S10000x128.Idx → Elt F .f32) (g : (win0_0.xblock (grid0.coords t)).Idx → Elt F .f32)
    (s : Vec F S10000x128 .bf16),
    k0_pay6 (F := F) (grid0.coords t) (win0_0.fill (grid0.coords t) d g) s = k0_pay6 (grid0.coords t) (win0_0.fill (grid0.coords t) d' g) s)

include hrunA hrunB hpay5 hpay6

/-- The body at any point: window 0's buffer arrives holding the stripe filled out with some `d` past the array,
    window 1's the embeddings; at the first point the accumulators' buffers hold anything and the body resets them,
    at a later point they hold what the point before left. What the body computes does not read the lanes past the
    array (`hpay5`, `hpay6`), so the accumulators are those of the stripe filled out with the zero word. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_1, after0_2, after0_3]
  have hx : win0_0.cut (grid0.coords t) ((dat0 V c).after 0 t) = iblk0 V c 0 t := by
    rw [after0_0]; unfold hblk; exact win0_0.cut_fill _ _ _
  rw [hx]
  by_cases h0 : t.val % 16 = 0
  · rw [accAt_A V c t h0, sAt_A V c t h0]
    iintro ⟨HΦ, Ho, ⟨%d0, H0⟩, ⟨%d1, H1⟩, ⟨%d2, H2⟩, ⟨%d3, H3⟩⟩
    rw [before0_0 V c t d0, before0_1 V c t d1]
    have e5 : k0_pay5 (grid0.coords t) (hblk V c t) (xblk V c t) (k0_pay3 (F := F))
        = k0_pay5 (grid0.coords t) (win0_0.fill (grid0.coords t) d0 (iblk0 V c 0 t)) (xblk V c t) (k0_pay3 (F := F)) :=
      hpay5 t _ d0 _ _ _
    have e6 : k0_pay6 (grid0.coords t) (hblk V c t) (k0_pay4 (F := F))
        = k0_pay6 (grid0.coords t) (win0_0.fill (grid0.coords t) d0 (iblk0 V c 0 t)) (k0_pay4 (F := F)) :=
      hpay6 t _ d0 _ _
    rw [e5, e6]
    iapply (hrunA c Set.univ (grid0.coords t) ((hcond0' t).mpr h0) _ _ _ _ _ _ _ _
      (win0_0.fill (grid0.coords t) d0 (iblk0 V c 0 t)) (xblk V c t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    iexact H3
  · rw [accAt_B V c t h0, sAt_B V c t h0]
    iintro ⟨HΦ, Ho, ⟨%d0, H0⟩, ⟨%d1, H1⟩, ⟨%d2, H2⟩, ⟨%d3, H3⟩⟩
    rw [before0_0 V c t d0, before0_1 V c t d1, before0_2_B V c t h0 d2, before0_3_B V c t h0 d3]
    have e5 : ∀ a, k0_pay5 (grid0.coords t) (hblk V c t) (xblk V c t) a
        = k0_pay5 (grid0.coords t) (win0_0.fill (grid0.coords t) d0 (iblk0 V c 0 t)) (xblk V c t) a :=
      fun a => hpay5 t _ d0 _ _ a
    have e6 : ∀ s, k0_pay6 (grid0.coords t) (hblk V c t) s
        = k0_pay6 (grid0.coords t) (win0_0.fill (grid0.coords t) d0 (iblk0 V c 0 t)) s :=
      fun s => hpay6 t _ d0 _ s
    rw [e5, e6]
    iapply (hrunB c Set.univ (grid0.coords t) (fun h => h0 ((hcond0' t).mp h)) _ _ _ _ _ _ _ _
      (win0_0.fill (grid0.coords t) d0 (iblk0 V c 0 t)) (xblk V c t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    iexact H3

/-- The library's body obligation (the loose form: window 0's blocks overhang the array), at every point. -/
theorem body_obligation0_of (c : Dev nD) :
    BodyObligationLoose (dat0 (F := F) V c) (defs₀ (F := F)) Variants.none () Set.univ := fun t => by
  rw [bigSep_W0, bigSep_W0]
  exact sound_body0 V hrunA hrunB hpay5 hpay6 c t

end Obligation

end Cert.KernelIdeal.Hand

end
-- ==== Proof.KI.Body1.lean ====
/-
  The second pallas_call's body: it loads a block of 2000 rows of each accumulator, and stores the first over the row sums of
  the second (a zero sum replaced by one) over the whole output block. Both input buffers have just been fetched at every
  point; the output buffer may hold anything.
-/
import proofs.«167729_g46076409151878_cont_8to1_c_255_12_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions

variable (V : (c : Dev nD) → (b : Ref sig .tc) → Buf (Elt F) ((c : Thread nD τ).loc b))

/-! ## Region 1: the body's triple -/

theorem hz1 : (![0, 0] : Fin 2 → Nat) = fun _ => 0 := by
  funext a; fin_cases a <;> rfl

set_option maxHeartbeats 1000000 in
/-- The body on whole staging memrefs, the inputs' at their contents and the output's at anything, runs to the
    continuation holding the inputs' as they were and the output's at the quotient of the two inputs. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole) (arg3 : Memref sig .tc .vmem S2000x128 .f32) (harg3 : arg3.IsWhole)
    (x0 : Vec F S2000x128 .f32) (x1 : Vec F S2000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x1 x0)) -∗ K ⟨⟩))
      ⊢ wp frame (wpE (defs₀ (F := F)) Variants.none c none) E (cc1__norm_kernel i arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have e1 : View.readAt (Elt F) arg2.view (Rect.unit (s := S2000x128) ![0, 0] S2000x128.size inb_S2000x128_S2000x128_0_0).toLoadRect f1
      = View.read (Elt F) arg2.view f1 := View.ld_unit_zero (S := S2000x128) hz1 _ _
  have e0 : View.readAt (Elt F) arg1.view (Rect.unit (s := S2000x128) ![0, 0] S2000x128.size inb_S2000x128_S2000x128_0_0).toLoadRect f0
      = View.read (Elt F) arg1.view f0 := View.ld_unit_zero (S := S2000x128) hz1 _ _
  refine (View.read_writes_eq_canon _ _ _ ?_).trans ?_
  · intro y
    exact ⟨_, List.mem_singleton_self _, View.mem_set_unit_zero (S := S2000x128) hz1 inb_S2000x128_S2000x128_0_0 y⟩
  · rw [View.canon_unit_zero hz1, e1, e0]

/-! ## Region 1: the input windows' buffers at a point -/

/-- Input window 0's current staging buffer holds its block at every point: fetched at every point, uncut, never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## Region 1: the body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Frame.lean ====
/-
  The two body obligations assembled — region 0's from the body's two runs and the mask lemmas, region 1's as proved —, and
  with them the run of @main and the frame: every weakly fair execution terminates, nothing faulting, and leaves both argument
  arrays as launched.
-/
import proofs.«167729_g46076409151878_cont_8to1_c_255_12_alg».proof.Proof.KI.Launch
import proofs.«167729_g46076409151878_cont_8to1_c_255_12_alg».proof.Proof.KI.Mask
import proofs.«167729_g46076409151878_cont_8to1_c_255_12_alg».proof.Proof.KI.Run0
import proofs.«167729_g46076409151878_cont_8to1_c_255_12_alg».proof.Proof.KI.Body0
import proofs.«167729_g46076409151878_cont_8to1_c_255_12_alg».proof.Proof.KI.Body1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligation BodyObligationLoose)

variable {F : FTy → Type} [FloatOps F]

/-- Region 0's body obligation at any entry contents. -/
theorem body0 (V : (c : Dev nD) → (b : Ref sig .tc) → Buf (Elt F) ((c : Thread nD τ).loc b)) (c : Dev nD) :
    BodyObligationLoose (dat0 (F := F) V c) (defs₀ (F := F)) Variants.none () Set.univ :=
  body_obligation0_of V sound_kernel0_A sound_kernel0_B pay5_fill pay6_fill c

/-- Region 1's. -/
theorem body1 (V : (c : Dev nD) → (b : Ref sig .tc) → Buf (Elt F) ((c : Thread nD τ).loc b)) (c : Dev nD) :
    BodyObligationLoose (dat1 (F := F) V c) (defs₀ (F := F)) Variants.none () Set.univ :=
  (body_obligation1 V c).loose

variable (m : (ℓ : Loc nD τ sig) → Buf (Elt F) ℓ) (ρ : Dev nD → PrngReg)

/-- The run: every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  run m (fun c => body0 (V1 m) c) (fun c => body1 (V2 m) c) ρ

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m (fun c => body0 (V1 m) c) (fun c => body1 (V2 m) c) ρ

end Cert.KernelIdeal.Hand

end
-- ==== Proof.Spec.lean ====
/-
  The two sides of the claim as plain formulas on the extended reals, over matrices indexed by Fin.

  X is the 10000 × 128 matrix of item embeddings, H the 10000 × 2000 incidence matrix (item i carries tag t).
  nz x is x with a zero replaced by one (a degree used as a divisor).

  The reference: Hb = [H > 0];  B_t = nz (Σ_j Hb j t), D_i = nz (Σ_t Hb i t);
      out i f = (1 / D_i) · Σ_t Hb i t · ((1 / B_t) · Σ_j Hb j t · X j f).
  The kernel walks the tags in 16 stripes of 128 lanes; lane l of stripe k is tag 128 k + l when that is below 2000 and
  carries zeros otherwise:  hs k i l.  Per stripe it adds  Σ_l hs k i l · ((Σ_j hs k j l · X j f) · (1 / nz (Σ_j hs k j l)))
  to an accumulator and hs k to a second one, and at the end divides the first by nz of the second's row sums.
-/
import Idealize.ShloMosaic.PureOps.Ideal
import Idealize.ShloMosaic.Lib.ValueIdx

noncomputable section

namespace Cert.Spec

open Idealize.ShloMosaic

/-- A matrix of extended reals. -/
abbrev Mat (a b : Nat) : Type := Fin a → Fin b → EReal

/-- A two-dimensional array of extended reals read as a matrix. -/
def ofArr {a b : Nat} (x : (⟨2, ![a, b]⟩ : Shape).Idx → EReal) : Mat a b := fun i j => x (ValueIdx.ix2 i j)

/-- A degree as a divisor: zero replaced by one. -/
def nz (x : EReal) : EReal := if x = 0 then 1 else x

/-- The binarised incidence matrix: one where the entry is positive, zero elsewhere. -/
def hb (H : Mat 10000 2000) : Mat 10000 2000 := fun i t => if 0 < H i t then 1 else 0

/-- The reference's result. -/
def refOut (X : Mat 10000 128) (H : Mat 10000 2000) : Mat 10000 128 := fun i f =>
  Ideal.div 1 (nz (∑ t : Fin 2000, hb H i t))
    * ∑ t : Fin 2000, hb H i t * (Ideal.div 1 (nz (∑ j : Fin 10000, hb H j t)) * ∑ j : Fin 10000, hb H j t * X j f)

/-- Stripe `k` of the incidence matrix: lane `l` is tag `128 k + l` when that is a tag, and zero past the last tag. -/
def hs (H : Mat 10000 2000) (k : Fin 16) (i : Fin 10000) (l : Fin 128) : EReal :=
  if h : 128 * k.val + l.val < 2000 then H i ⟨128 * k.val + l.val, h⟩ else 0

/-- What stripe `k` adds to the accumulator at (i, f). -/
def stripeTerm (X : Mat 10000 128) (H : Mat 10000 2000) (k : Fin 16) (i : Fin 10000) (f : Fin 128) : EReal :=
  ∑ l : Fin 128, hs H k i l * ((∑ j : Fin 10000, hs H k j l * X j f) * Ideal.div 1 (nz (∑ j : Fin 10000, hs H k j l)))

/-- The first accumulator after the last stripe. -/
def kerAcc (X : Mat 10000 128) (H : Mat 10000 2000) : Mat 10000 128 := fun i f => ∑ k : Fin 16, stripeTerm X H k i f

/-- The second accumulator after the last stripe: lane by lane the sum of the stripes. -/
def kerS (H : Mat 10000 2000) : Mat 10000 128 := fun i l => ∑ k : Fin 16, hs H k i l

/-- The kernel's result: the first accumulator over the item's degree. -/
def kerOut (X : Mat 10000 128) (H : Mat 10000 2000) : Mat 10000 128 := fun i f =>
  Ideal.div (kerAcc X H i f) (nz (∑ l : Fin 128, kerS H i l))

end Cert.Spec

end
-- ==== Proof.KI.MaskIdeal.lean ====
/-
  The masked stripe read at an entry, at the exact values: lane l of stripe t at item i is H i (128 t + l) when that tag
  exists and zero otherwise.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167729_g46076409151878_cont_8to1_c_255_12_alg».proof.Proof.KI.Data
import proofs.«167729_g46076409151878_cont_8to1_c_255_12_alg».proof.Proof.KI.Mask
import proofs.«167729_g46076409151878_cont_8to1_c_255_12_alg».proof.Proof.Spec
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The masked stripe at the ideal values

Lane `l` of stripe `t` of the masked block is the incidence matrix's entry at tag `128 t + l` when that is a tag, and zero
past the last tag: on those lanes the mask puts the zero word whatever the fetch left there. -/

/-- A lane inside the array is kept by the mask. -/
theorem mask_on_num : ∀ (n : Fin 16) (l : Fin 128), 128 * n.val + l.val < 2000 →
    IntOp.cmpi .slt (BitVec.ofNat 32 (0 * 128 + l.val)) (Scalar.subi 2000#32 (Scalar.muli (BitVec.ofNat 32 n.val) 128#32)) = 1 := by
  decide +kernel

/-- A lane past the array's end is masked off. -/
theorem mask_past_num : ∀ (n : Fin 16) (l : Fin 128), ¬ 128 * n.val + l.val < 2000 →
    IntOp.cmpi .slt (BitVec.ofNat 32 (0 * 128 + l.val)) (Scalar.subi 2000#32 (Scalar.muli (BitVec.ofNat 32 n.val) 128#32)) = 0#1 := by
  decide +kernel

/-- A lane inside the array is one the fetch moves. -/
theorem moved_num : ∀ (n : Fin 16) (l : Fin 128), 128 * n.val + l.val < 2000 →
    l.val < (Pipeline.Clip.of (BitVec.ofNat 32 n.val).toNat 128 2000).extent 128 := by
  decide +kernel

/-- The point's one coordinate is its number; window 0's block index is (0, that number). -/
theorem point_facts : ∀ t : Fin cfg0.N, (grid0.coords t 0).val = t.val ∧ win0_0.index t (0 : Fin 2) = 0 ∧ win0_0.index t (1 : Fin 2) = t.val :=
  (by decide +kernel : ∀ t : Fin grid0.N, _)

/-- Window 0's block at a point, read at an index of its part inside the array. -/
theorem iblk0_0_apply (V : (c : Dev nD) → (b : Ref sig .tc) → Buf (Elt F) ((c : Thread nD τ).loc b)) (c : Dev nD) (t : Fin cfg0.N)
    (y : ((cfg0.win 0).xblock (cfg0.grid.coords t)).Idx) :
    iblk0 V c 0 t y = V c main_arg1 (((cfg0.win 0).blk t).view.emb y) := rfl

/-- The index of the array under an index of window 0's block at point `t`: row `i`, tag `128 t + l`. -/
theorem blk0_emb (t : Fin cfg0.N) (i : Fin 10000) (l : Fin 128) (hin : 128 * t.val + l.val < 2000)
    (y : ((cfg0.win 0).xblock (cfg0.grid.coords t)).Idx) (e0 : (y 0).val = i.val) (e1 : (y 1).val = l.val) :
    ((cfg0.win 0).blk t).view.emb y = ValueIdx.ix2 i ⟨128 * t.val + l.val, hin⟩ := by
  obtain ⟨hc, hi0, hi1⟩ := point_facts t
  funext a; apply Fin.ext
  match a with
  | ⟨0, _⟩ => show win0_0.index t (0 : Fin 2) * 10000 + 1 * (y 0).val = i.val; omega
  | ⟨1, _⟩ => show win0_0.index t (1 : Fin 2) * 128 + 1 * (y 1).val = 128 * t.val + l.val; omega

theorem hblk_apply (V : (c : Dev nD) → (b : Ref sig .tc) → Buf (Elt Ideal) ((c : Thread nD τ).loc b)) (c : Dev nD) (t : Fin cfg0.N) (i : Fin 10000) (l : Fin 128) :
    k0_pay1 (F := Ideal) (grid0.coords t) (hblk V c t) (ValueIdx.ix2 i l)
      = Cert.Spec.hs (Cert.Spec.ofArr (V c main_arg1)) ⟨t.val, by have := t.isLt; have : cfg0.N = 16 := N_0; omega⟩ i l := by
  obtain ⟨hc, hi0, hi1⟩ := point_facts t
  have hn : (grid0.coords t 0).val < 16 := (grid0.coords t 0).isLt
  rw [pay1_apply]
  unfold Cert.Spec.hs
  by_cases hin : 128 * t.val + l.val < 2000
  · rw [dif_pos hin]
    have hin' : 128 * (grid0.coords t 0).val + l.val < 2000 := by omega
    have hb : maskBit (grid0.coords t) (ValueIdx.ix2 i l) = 1 := mask_on_num ⟨(grid0.coords t 0).val, hn⟩ l hin'
    have hm : win0_0.moved (grid0.coords t) (ValueIdx.ix2 i l) = true := by
      rw [Window.moved_iff]; intro a
      match a with
      | ⟨0, _⟩ => exact i.isLt
      | ⟨1, _⟩ => exact moved_num ⟨(grid0.coords t 0).val, hn⟩ l hin'
    rw [hb]
    unfold Scalar.select
    rw [if_pos rfl]
    unfold hblk Window.fill
    rw [dif_pos hm, iblk0_0_apply]
    unfold Cert.Spec.ofArr
    rw [blk0_emb t i l hin _ rfl rfl]
  · rw [dif_neg hin]
    have hin' : ¬ 128 * (grid0.coords t 0).val + l.val < 2000 := by omega
    have hb : maskBit (grid0.coords t) (ValueIdx.ix2 i l) = 0#1 := mask_past_num ⟨(grid0.coords t 0).val, hn⟩ l hin'
    rw [hb]
    unfold Scalar.select
    rw [if_neg (by decide)]
    exact Ideal.ofBits_zero_f32

end Cert.KernelIdeal.Hand

end
-- ==== Proof.KI.PayS.lean ====
/-
  The second accumulator at an entry: one point adds the masked stripe's entry to what was there, so after point n lane l of
  item i holds the sum over the stripes up to n of that lane.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.IdealHost
import Idealize.ShloMosaic.PureOps.Ideal.Laws
import proofs.«167729_g46076409151878_cont_8to1_c_255_12_alg».proof.Proof.Spec
import proofs.«167729_g46076409151878_cont_8to1_c_255_12_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The second accumulator of custom_call 0 read at an index -/

/-- The second accumulator's update at an index: the previous contents plus the masked stripe. -/
theorem pay6_apply (i : grid0.Coords) (v0 : Vec Ideal S10000x128 .f32) (v31 : Vec Ideal S10000x128 .bf16) (a : Fin 10000) (l : Fin 128) :
    k0_pay6 (F := Ideal) i v0 v31 (ValueIdx.ix2 a l) = v31 (ValueIdx.ix2 a l) + k0_pay1 (F := Ideal) i v0 (ValueIdx.ix2 a l) := by
  unfold k0_pay6 k0_pay2
  generalize k0_pay1 (F := Ideal) i v0 = p
  rw [shapeCast_self]
  exact ValueIdx.addf_apply v31 _ _

/-- The reset contents of the second accumulator are zero. -/
theorem pay4_apply (j : S10000x128.Idx) : k0_pay4 (F := Ideal) j = 0 := by
  unfold k0_pay4
  exact Ideal.ofBits_zero_bf16

/-- A point of grid 0 is below sixteen. -/
theorem lt16_of_lt {n : ℕ} (hn : n < cfg0.N) : n < 16 := by
  have h : cfg0.N = 16 := N_0
  omega

/-- The cut-off sum over sixteen stripes at cut-off zero is its first term. -/
theorem sum_le_zero (f : Fin 16 → EReal) :
    (∑ k : Fin 16, if k.val ≤ 0 then f k else 0) = f ⟨0, by decide⟩ := by
  have hpt : ∀ k : Fin 16, (if k.val ≤ 0 then f k else 0) = (if k = ⟨0, by decide⟩ then f k else 0) := by
    intro k
    by_cases h1 : k.val ≤ 0
    · have h3 : k = ⟨0, by decide⟩ := Fin.ext (by simp only; omega)
      rw [if_pos h1, if_pos h3]
    · have h3 : k ≠ ⟨0, by decide⟩ := fun e => h1 (by rw [e])
      rw [if_neg h1, if_neg h3]
  rw [Finset.sum_congr rfl (fun k _ => hpt k), Finset.sum_ite_eq', if_pos (Finset.mem_univ _)]

/-- Raising the cut-off by one adds one term. -/
theorem sum_le_succ (f : Fin 16 → EReal) (n : ℕ) (h : n + 1 < 16) :
    (∑ k : Fin 16, if k.val ≤ n + 1 then f k else 0) = (∑ k : Fin 16, if k.val ≤ n then f k else 0) + f ⟨n + 1, h⟩ := by
  have hpt : ∀ k : Fin 16, (if k.val ≤ n + 1 then f k else 0)
      = (if k.val ≤ n then f k else 0) + (if k = ⟨n + 1, h⟩ then f k else 0) := by
    intro k
    by_cases h1 : k.val ≤ n
    · have h2 : k.val ≤ n + 1 := by omega
      have h3 : k ≠ ⟨n + 1, h⟩ := fun e => by
        have := congrArg Fin.val e; simp only at this; omega
      rw [if_pos h1, if_pos h2, if_neg h3, add_zero]
    · by_cases h2 : k.val = n + 1
      · have h3 : k = ⟨n + 1, h⟩ := Fin.ext h2
        have h4 : k.val ≤ n + 1 := by omega
        rw [if_neg h1, if_pos h4, if_pos h3, zero_add]
      · have h3 : k ≠ ⟨n + 1, h⟩ := fun e => h2 (congrArg Fin.val e)
        have h4 : ¬ k.val ≤ n + 1 := by omega
        rw [if_neg h1, if_neg h4, if_neg h3, add_zero]
  rw [Finset.sum_congr rfl (fun k _ => hpt k), Finset.sum_add_distrib, Finset.sum_ite_eq', if_pos (Finset.mem_univ _)]

section

variable (V : (c : Dev nD) → (b : Ref sig .tc) → Buf (Elt Ideal) ((c : Thread nD τ).loc b))
variable (hh : ∀ (c : Dev nD) (t : Fin cfg0.N) (i : Fin 10000) (l : Fin 128),
    k0_pay1 (F := Ideal) (grid0.coords t) (hblk V c t) (ValueIdx.ix2 i l)
      = Cert.Spec.hs (Cert.Spec.ofArr (V c main_arg1)) ⟨t.val, lt16_of_lt t.isLt⟩ i l)
include hh

/-- The second accumulator after point `n` at an index: the sum of the stripes up to `n`. -/
theorem sAt_apply (c : Dev nD) (n : ℕ) (hn : n < cfg0.N) (i : Fin 10000) (l : Fin 128) :
    sAt (F := Ideal) V c n hn (ValueIdx.ix2 i l)
      = ∑ k : Fin 16, if k.val ≤ n then Cert.Spec.hs (Cert.Spec.ofArr (V c main_arg1)) k i l else 0 := by
  induction n with
  | zero =>
    rw [sum_le_zero]
    unfold sAt
    rw [pay6_apply, pay4_apply, zero_add, hh]
  | succ n ih =>
    rw [sum_le_succ _ n (lt16_of_lt hn)]
    unfold sAt
    rw [pay6_apply, ih (Nat.lt_of_succ_lt hn), hh]

end

end Cert.KernelIdeal.Hand

end
-- ==== Proof.KI.PayAccOps.lean ====
/-
  Single operations of the first pallas_call's body read at an entry, at the exact values: a column sum, a vector as a column
  and its broadcast along the rows, the two matrix products (one contracting the item axis of both operands, one plain), and
  a number with zero replaced by one.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«167729_g46076409151878_cont_8to1_c_255_12_alg».proof.Proof.Spec
import proofs.«167729_g46076409151878_cont_8to1_c_255_12_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

namespace PayAcc

/-! ## The operations of the accumulator's update that are not entry by entry, read at an entry -/

/-- Column `l` with the row `k` put back is the entry `(k, l)`. -/
theorem lift_col {a b : ℕ} (h : (⟨2, ![a, b]⟩ : Shape).Reduces [0] (⟨1, ![b]⟩ : Shape)) (l : Fin b)
    (k : Fin ((⟨2, ![a, b]⟩ : Shape).size 0)) : h.lift (ix1 l) k = ix2 (⟨k.val, k.isLt⟩ : Fin a) l := by
  funext c; apply Fin.ext
  fin_cases c <;> rfl

/-- A lane sum along axis 0 of an `[a, b]` matrix, at column `l`, is the sum of that column's entries. -/
theorem colSum_apply {a b : ℕ} (X : FVec Ideal ⟨2, ![a, b]⟩ .f32)
    (h : (⟨2, ![a, b]⟩ : Shape).Reduces [0] (⟨1, ![b]⟩ : Shape)) (hφ : FTy.f32 = FTy.f32 ∨ FTy.f32 = FTy.bf16)
    (hacc : (0x00000000#32 : BitVec 32) = 0x00000000#32) (l : Fin b) :
    multiReduction .add [0] ⟨1, ![b]⟩ X 0x00000000#32 h hφ hacc (ix1 l) = ∑ k : Fin a, X (ix2 k l) :=
  (Ideal.multiReduction_add_single X 0x00000000#32 h hφ hacc (ix1 l)).trans
    (Finset.sum_congr rfl fun k _ => congrArg X (lift_col h l k))

/-- An `[a]` vector cast to a column `[a, 1]` reads, at `(p, u)`, the vector at `p`. -/
theorem shapeCast_col_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product contracting the rows of both operands. -/
abbrev dotT : DotDims S10000x128 S10000x128 S128x128 := dot_S10000x128_S10000x128_S128x128_0_0_1_1_n_n
/-- The plain product of a stripe with a 128 × 128 matrix. -/
abbrev dotP : DotDims S10000x128 S128x128 S10000x128 := dot_S10000x128_S128x128_S10000x128_1_0_0_1_n_n

theorem dotT_lhs_non (j : S128x128.Idx) (q : dotT.contr.Idx) : (dotT.lhsIdx j q 1).val = (j 0).val := by
  unfold DotDims.lhsIdx
  rw [dif_neg (show ¬(1 : Fin S10000x128.rank) ∈ dotT.lhsBatch from List.not_mem_nil),
    dif_pos (show (1 : Fin S10000x128.rank) ∈ dotT.lhsNonContracting from List.mem_singleton.mpr rfl)]
  rfl

theorem dotT_rhs_non (j : S128x128.Idx) (q : dotT.contr.Idx) : (dotT.rhsIdx j q 1).val = (j 1).val := by
  unfold DotDims.rhsIdx
  rw [dif_neg (show ¬(1 : Fin S10000x128.rank) ∈ dotT.rhsBatch from List.not_mem_nil),
    dif_pos (show (1 : Fin S10000x128.rank) ∈ dotT.rhsNonContracting from List.mem_singleton.mpr rfl)]
  rfl

theorem dotP_lhs_non (j : S10000x128.Idx) (q : dotP.contr.Idx) : (dotP.lhsIdx j q 0).val = (j 0).val := by
  unfold DotDims.lhsIdx
  rw [dif_neg (show ¬(0 : Fin S10000x128.rank) ∈ dotP.lhsBatch from List.not_mem_nil),
    dif_pos (show (0 : Fin S10000x128.rank) ∈ dotP.lhsNonContracting from List.mem_singleton.mpr rfl)]
  rfl

theorem dotP_rhs_non (j : S10000x128.Idx) (q : dotP.contr.Idx) : (dotP.rhsIdx j q 1).val = (j 1).val := by
  unfold DotDims.rhsIdx
  rw [dif_neg (show ¬(1 : Fin S128x128.rank) ∈ dotP.rhsBatch from List.not_mem_nil),
    dif_pos (show (1 : Fin S128x128.rank) ∈ dotP.rhsNonContracting from List.mem_singleton.mpr rfl)]
  rfl

/-- The `(l, f)` entry of the product contracting the rows of both operands, into zero: `∑ j, x[j,l] · y[j,f]`. -/
theorem matmulT_apply {φ₁ φ₂ : FTy} (x : FVec Ideal S10000x128 φ₁) (y : FVec Ideal S10000x128 φ₂) (l f : Fin 128) :
    matmul dot_S10000x128_S10000x128_S128x128_0_0_1_1_n_n none x y (constant (F := Ideal) S128x128 .f32 0x00000000#32) (ix2 l f)
      = ∑ j : Fin 10000, x (ix2 j l) * y (ix2 j f) := by
  show FloatOps.matmul dotT none x y (constant (F := Ideal) S128x128 .f32 0x00000000#32) (ix2 l f) = _
  rw [Ideal.matmul_constant_zero_apply, ← Equiv.sum_comp (contrEquiv1 dotT 10000 rfl rfl).symm]
  refine Finset.sum_congr rfl fun k _ => ?_
  have hk := contrEquiv1_symm_val dotT 10000 rfl rfl k
  have el : dotT.lhsIdx (ix2 l f) ((contrEquiv1 dotT 10000 rfl rfl).symm k) = ix2 k l :=
    funext fun x => Fin.ext (by
      match x with
      | ⟨0, _⟩ => exact (dotT.lhsIdx_val_of_single rfl _ _).trans hk
      | ⟨1, _⟩ => exact dotT_lhs_non _ _)
  have er : dotT.rhsIdx (ix2 l f) ((contrEquiv1 dotT 10000 rfl rfl).symm k) = ix2 k f :=
    funext fun x => Fin.ext (by
      match x with
      | ⟨0, _⟩ => exact (dotT.rhsIdx_val_of_single rfl _ _).trans hk
      | ⟨1, _⟩ => exact dotT_rhs_non _ _)
  rw [el, er]

/-- The `(a, f)` entry of a stripe times a 128 × 128 matrix, into zero: `∑ l, x[a,l] · y[l,f]`. -/
theorem matmulP_apply {φ₁ φ₂ : FTy} (x : FVec Ideal S10000x128 φ₁) (y : FVec Ideal S128x128 φ₂) (a : Fin 10000) (f : Fin 128) :
    matmul dot_S10000x128_S128x128_S10000x128_1_0_0_1_n_n none x y (constant (F := Ideal) S10000x128 .f32 0x00000000#32) (ix2 a f)
      = ∑ l : Fin 128, x (ix2 a l) * y (ix2 l f) := by
  show FloatOps.matmul dotP none x y (constant (F := Ideal) S10000x128 .f32 0x00000000#32) (ix2 a f) = _
  rw [Ideal.matmul_constant_zero_apply, ← Equiv.sum_comp (contrEquiv1 dotP 128 rfl rfl).symm]
  refine Finset.sum_congr rfl fun k _ => ?_
  have hk := contrEquiv1_symm_val dotP 128 rfl rfl k
  have el : dotP.lhsIdx (ix2 a f) ((contrEquiv1 dotP 128 rfl rfl).symm k) = ix2 a k :=
    funext fun x => Fin.ext (by
      match x with
      | ⟨0, _⟩ => exact dotP_lhs_non _ _
      | ⟨1, _⟩ => exact (dotP.lhsIdx_val_of_single rfl _ _).trans hk)
  have er : dotP.rhsIdx (ix2 a f) ((contrEquiv1 dotP 128 rfl rfl).symm k) = ix2 k f :=
    funext fun x => Fin.ext (by
      match x with
      | ⟨0, _⟩ => exact (dotP.rhsIdx_val_of_single rfl _ _).trans hk
      | ⟨1, _⟩ => exact dotP_rhs_non _ _)
  rw [el, er]

/-- A sum with a zero replaced by one, as the kernel selects it. -/
theorem select_nz (s : EReal) :
    Scalar.select (FloatOps.cmpf (F := Ideal) (φ := .f32) .oeq s (Scalar.ofBits (F := Ideal) .f32 0x00000000#32))
        (Scalar.ofBits (F := Ideal) .f32 0x3F800000#32 : Ideal .f32) s = Cert.Spec.nz s := by
  have h0 : (Scalar.ofBits (F := Ideal) .f32 0x00000000#32 : Ideal .f32) = (0 : EReal) := Ideal.ofBits_zero_f32
  have h1 : (Scalar.ofBits (F := Ideal) .f32 0x3F800000#32 : Ideal .f32) = (1 : EReal) := Ideal.ofBits_one_f32
  rw [h0, h1, Ideal.cmpf_def]
  unfold Cert.Spec.nz Scalar.select Ideal.cmp
  by_cases hs : s = 0
  · simp [hs]
  · simp [hs]

end PayAcc

end Cert.KernelIdeal.Hand

end
-- ==== Proof.KI.PayAccPay.lean ====
/-
  One point's update of the first accumulator at an entry: what was there, plus the sum over the lanes of the masked stripe's
  entry times the lane's message — the stripe's column of (Hᵀ X) over the column's degree, a zero degree replaced by one.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«167729_g46076409151878_cont_8to1_c_255_12_alg».proof.Proof.Spec
import proofs.«167729_g46076409151878_cont_8to1_c_255_12_alg».proof.Proof.KI.Data
import proofs.«167729_g46076409151878_cont_8to1_c_255_12_alg».proof.Proof.KI.PayAccOps
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open PayAcc

/-- one point's update of the accumulator, entry by entry, over the masked stripe -/
theorem pay5_apply (i : grid0.Coords) (v0 : Vec Ideal S10000x128 .f32) (v17 : Vec Ideal S10000x128 .bf16) (v26 : Vec Ideal S10000x128 .f32) (a : Fin 10000) (f : Fin 128) :
    k0_pay5 (F := Ideal) i v0 v17 v26 (ValueIdx.ix2 a f)
      = v26 (ValueIdx.ix2 a f) + ∑ l : Fin 128, k0_pay1 (F := Ideal) i v0 (ValueIdx.ix2 a l)
          * ((∑ j : Fin 10000, k0_pay1 (F := Ideal) i v0 (ValueIdx.ix2 j l) * v17 (ValueIdx.ix2 j f))
              * Ideal.div 1 (Cert.Spec.nz (∑ j : Fin 10000, k0_pay1 (F := Ideal) i v0 (ValueIdx.ix2 j l)))) := by
  unfold k0_pay5 k0_pay2
  generalize k0_pay1 (F := Ideal) i v0 = p
  dsimp only
  rw [addf_apply, matmulP_apply, shapeCast_self]
  refine congrArg (v26 (ix2 a f) + ·) (Finset.sum_congr rfl fun l _ => ?_)
  rw [truncf_apply, truncf_apply, mulf_apply, matmulT_apply, broadcastTo_col_apply, divf_apply, select_apply, cmpf_apply]
  rw [shapeCast_col_apply, colSum_apply, shapeCast_self]
  have h1 : (FloatOps.ofBits (F := Ideal) .f32 0x3F800000#32 : Ideal .f32) = (1 : EReal) := Ideal.ofBits_one_f32
  have hnz := select_nz (∑ j : Fin 10000, p (ix2 j l))
  refine congrArg (p (ix2 a l) * ·) ?_
  refine congrArg₂ (· * ·) rfl ?_
  exact congrArg₂ Ideal.div h1 hnz

end Cert.KernelIdeal.Hand

end
-- ==== Proof.KI.PayAcc.lean ====
/-
  The first accumulator at an entry: after point n it holds the sum over the stripes up to n of the stripe's term.
-/
import proofs.«167729_g46076409151878_cont_8to1_c_255_12_alg».proof.Proof.Gen.KernelIdeal.Launch
import proofs.«167729_g46076409151878_cont_8to1_c_255_12_alg».proof.Proof.Gen.KernelIdeal.Skeleton
import proofs.«167729_g46076409151878_cont_8to1_c_255_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«167729_g46076409151878_cont_8to1_c_255_12_alg».proof.Proof.Spec
import proofs.«167729_g46076409151878_cont_8to1_c_255_12_alg».proof.Proof.KI.Data
import proofs.«167729_g46076409151878_cont_8to1_c_255_12_alg».proof.Proof.KI.PayS
import proofs.«167729_g46076409151878_cont_8to1_c_255_12_alg».proof.Proof.KI.PayAccPay
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open PayAcc

/-- The reset contents of the first accumulator are zero. -/
theorem pay3_apply (j : S10000x128.Idx) : k0_pay3 (F := Ideal) j = 0 := by
  unfold k0_pay3
  exact Ideal.ofBits_zero_f32

section

variable (V : (c : Dev nD) → (b : Ref sig .tc) → Buf (Elt Ideal) ((c : Thread nD τ).loc b))

/-- The embeddings' window is the whole array at every point. -/
theorem xblk_apply (c : Dev nD) (t : Fin cfg0.N) (j : Fin 10000) (f : Fin 128) :
    xblk (F := Ideal) V c t (ix2 j f) = Cert.Spec.ofArr (V c main_call0_v0) j f := by
  show V c main_call0_v0 (((cfg0.win 1).blk t).view.emb (ix2 j f)) = V c main_call0_v0 (ix2 j f)
  refine congrArg (V c main_call0_v0) ?_
  funext a; apply Fin.ext
  match a with
  | ⟨0, _⟩ =>
    show 0 * 10000 + 1 * j.val = j.val
    omega
  | ⟨1, _⟩ =>
    show 0 * 128 + 1 * f.val = f.val
    omega

variable (hh : ∀ (c : Dev nD) (t : Fin cfg0.N) (i : Fin 10000) (l : Fin 128),
    k0_pay1 (F := Ideal) (grid0.coords t) (hblk V c t) (ValueIdx.ix2 i l)
      = Cert.Spec.hs (Cert.Spec.ofArr (V c main_arg1)) ⟨t.val, lt16_of_lt t.isLt⟩ i l)
include hh

/-- One point's update of the accumulator adds that point's stripe term. -/
theorem PayAcc.step_eq (c : Dev nD) (t : Fin cfg0.N) (prev : Vec Ideal S10000x128 .f32) (i : Fin 10000) (f : Fin 128) :
    k0_pay5 (F := Ideal) (grid0.coords t) (hblk V c t) (xblk V c t) prev (ix2 i f)
      = prev (ix2 i f) + Cert.Spec.stripeTerm (Cert.Spec.ofArr (V c main_call0_v0)) (Cert.Spec.ofArr (V c main_arg1))
          ⟨t.val, lt16_of_lt t.isLt⟩ i f := by
  rw [pay5_apply]
  unfold Cert.Spec.stripeTerm
  refine congrArg (prev (ix2 i f) + ·) (Finset.sum_congr rfl fun l _ => ?_)
  simp only [hh, xblk_apply]

/-- The first accumulator after point `n` at an entry: the sum of the stripe terms up to `n`. -/
theorem accAt_apply (c : Dev nD) (n : ℕ) (hn : n < cfg0.N) (i : Fin 10000) (f : Fin 128) :
    accAt (F := Ideal) V c n hn (ValueIdx.ix2 i f)
      = ∑ k : Fin 16, if k.val ≤ n then Cert.Spec.stripeTerm (Cert.Spec.ofArr (V c main_call0_v0)) (Cert.Spec.ofArr (V c main_arg1)) k i f else 0 := by
  induction n with
  | zero =>
    rw [sum_le_zero]
    unfold accAt
    rw [PayAcc.step_eq V hh c ⟨0, hn⟩, pay3_apply, zero_add]
  | succ n ih =>
    rw [sum_le_succ _ n (lt16_of_lt hn)]
    unfold accAt
    rw [PayAcc.step_eq V hh c ⟨n + 1, hn⟩, ih (Nat.lt_of_succ_lt hn)]

end

end Cert.KernelIdeal.Hand

end
-- ==== Proof.LibRowReduce.lean ====
/-
  A matrix reduced along its rows, read at a row.

  Over an `[a, b]` matrix a lane reduction along axis 1 leaves one value per row: the sum of the row's `b`
  entries for `add`, and for `maximumf` the fold of `max` over them from the accumulator's value. The host's
  one-operand reduce with a maximum body reads the same way from its initial value.
-/
import Idealize.ShloMosaic.PureOps.Ideal.Laws
import Idealize.ShloMosaic.Lib.ValueIdx
import Idealize.ShloMosaic.Lib.IdealHost

noncomputable section

namespace Cert.Lib.RowReduce

open Idealize.ShloMosaic Idealize.ShloMosaic.ValueIdx

/-- Row `p` with the column `k` put back is the entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum along axis 1 of an `[a, b]` matrix, at row `p`, is the sum of that row's entries. -/
theorem rowSum_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ X 0x00000000#32 h hφ hacc (ix1 p) = ∑ k : Fin b, X (ix2 p k) :=
  (Ideal.multiReduction_add_single X 0x00000000#32 h hφ hacc (ix1 p)).trans
    (Finset.sum_congr rfl fun k _ => congrArg X (lift_row h p k))

/-- A lane maximum along axis 1 of an `[a, b]` matrix, at row `p`, is the fold of `max` over that row's entries from
    the accumulator's value. -/
theorem rowMax_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ X 0xFF800000#32 h hφ hacc (ix1 p)
      = (Finset.univ : Finset (Fin b)).fold max (Ideal.ofBits .f32 0xFF800000#32) (fun k => X (ix2 p k)) :=
  (Ideal.multiReduction_maximumf_single X 0xFF800000#32 h hφ hacc (ix1 p)).trans
    (congrArg (fun f => Finset.fold max (Ideal.ofBits .f32 0xFF800000#32) f (Finset.univ : Finset (Fin b)))
      (funext fun k => congrArg X (lift_row h p k)))

/-- A host reduction's shape fact along axis 1 of a matrix is also the lane reduction's (the reduced shape has an axis). -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) := ⟨h'.1, Nat.one_pos, h'.2⟩

/-- The host's reduce with a maximum body along axis 1 of an `[a, b]` matrix, at row `p`, is the fold of `max` over that
    row's entries from the initial value. -/
theorem hostRowMax_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduce FloatOps.maximumf X init h' hu (ix1 p)
      = (Finset.univ : Finset (Fin b)).fold max (init ix0) (fun k => X (ix2 p k)) := by
  have h := reduces_of_reducesTo h'
  rw [Host.reduce_eq_fold_single FloatOps.maximumf X init h' h hu]
  have hi : init (Shape.Idx.first hu) = init ix0 := congrArg init (eq_ix0 _)
  rw [hi]
  exact congrArg (fun f => Finset.fold max (init ix0) f (Finset.univ : Finset (Fin b)))
    (funext fun k => congrArg X (lift_row h p k))

/-- The host's float sum along axis 1 of an `[a, b]` matrix, at row `p`, is the initial value plus the sum of that row's
    entries. -/
theorem hostRowSum_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduceAdd X init h' hu (ix1 p) = init ix0 + ∑ k : Fin b, X (ix2 p k) := by
  have h := reduces_of_reducesTo h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_row h p k))

end Cert.Lib.RowReduce

end
-- ==== Proof.LibCastBroadcast.lean ====
/-
  A vector laid along one axis of a matrix and repeated along the other, read at an entry.

  A length-`a` vector cast to a column `[a, 1]` and broadcast to `[a, b]` holds, at `(p, c)`, the vector's entry `p`
  (every column is the vector); a length-`b` vector cast to a row `[1, b]` and broadcast to `[a, b]` holds, at `(p, c)`,
  the vector's entry `c` (every row is the vector).
-/
import Idealize.ShloMosaic.Lib.Pipeline.Value
import Idealize.ShloMosaic.Lib.ValueIdx
import Idealize.ShloMosaic.Lib.ValueLayout

noncomputable section

namespace Cert.Lib.CastBroadcast

open Idealize.ShloMosaic Idealize.ShloMosaic.ValueIdx

variable {α : Type}

/-- An `[a]` vector cast to a column `[a, 1]` reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector as the columns of a matrix: cast to `[a, 1]`, broadcast to `[a, b]`, read at `(p, c)`, it is the vector at `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- A vector as the rows of a matrix: cast to `[1, b]`, broadcast to `[a, b]`, read at `(p, c)`, it is the vector at `c`. -/
theorem row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.Lib.CastBroadcast

end
-- ==== Proof.KI.OutPay.lean ====
/-
  The second pallas_call's payload at an entry: the accumulator's entry over the row's lane sum, a zero sum replaced by one.
-/
import proofs.«167729_g46076409151878_cont_8to1_c_255_12_alg».proof.Proof.KI.Data
import proofs.«167729_g46076409151878_cont_8to1_c_255_12_alg».proof.Proof.Spec
import proofs.«167729_g46076409151878_cont_8to1_c_255_12_alg».proof.Proof.LibRowReduce
import proofs.«167729_g46076409151878_cont_8to1_c_255_12_alg».proof.Proof.LibCastBroadcast
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A value compared with zero and replaced by one where equal: the divisor with zero replaced by one. -/
theorem select_zero_one (x : EReal) :
    Scalar.select (FloatOps.cmpf (F := Ideal) (φ := .f32) .oeq x (Scalar.ofBits (F := Ideal) .f32 0x00000000#32))
      (Scalar.ofBits (F := Ideal) .f32 0x3F800000#32 : Ideal .f32) x = Cert.Spec.nz x := by
  have h1 : (Scalar.ofBits (F := Ideal) .f32 0x3F800000#32 : Ideal .f32) = (1 : EReal) := by
    show Ideal.ofBits .f32 0x3F800000#32 = 1
    simp [Ideal.ofBits, Ideal.ieee, -EReal.coe_mul]; norm_num
  have h0 : (Scalar.ofBits (F := Ideal) .f32 0x00000000#32 : Ideal .f32) = (0 : EReal) := Ideal.ofBits_zero_f32
  rw [h1, h0, Ideal.cmpf_def]
  unfold Cert.Spec.nz Ideal.cmp Scalar.select
  by_cases hx : x = 0
  · simp [hx]
  · simp [hx]

/-- the body's payload at an entry: the accumulator's entry over the row's degree (a zero degree replaced by one) -/
theorem pay1k_apply (v0 : Vec Ideal S2000x128 .bf16) (v9 : Vec Ideal S2000x128 .f32) (r : Fin 2000) (f : Fin 128) :
    k1_pay1 (F := Ideal) v0 v9 (ValueIdx.ix2 r f) = Ideal.div (v9 (ValueIdx.ix2 r f)) (Cert.Spec.nz (∑ l : Fin 128, v0 (ValueIdx.ix2 r l))) := by
  unfold k1_pay1
  dsimp only
  refine (ValueIdx.divf_apply _ _ _).trans ?_
  refine congrArg₂ Ideal.div ?_ ?_
  · exact congrFun (shapeCast_self v9 _) _
  · refine (Cert.Lib.CastBroadcast.broadcastTo_a1_ab_apply _ _ r f).trans ?_
    refine (ValueIdx.select_apply _ _ _ _).trans ?_
    have hs : shapeCast S2000x1
          (multiReduction (F := Ideal) FKind.add [1] S2000
            (extf FTy.f32 (shapeCast S2000x128 v0 shapeCasts_S2000x128_S2000x128) bitsLt_bf16_f32) (0#32)
            reduces_S2000x128_S2000 (.inl rfl) rfl)
          shapeCasts_S2000_S2000x1 (ValueIdx.ix2 r 0) = ∑ l : Fin 128, v0 (ValueIdx.ix2 r l) :=
      (Cert.Lib.CastBroadcast.shapeCast_a_a1_apply _ _ r 0).trans
        ((Cert.Lib.RowReduce.rowSum_apply _ _ _ _ r).trans
          (Finset.sum_congr rfl fun l _ => congrFun (shapeCast_self v0 _) _))
    rw [ValueIdx.cmpf_apply]
    simp only [ValueIdx.broadcast_apply]
    rw [hs]
    exact select_zero_one _

end Cert.KernelIdeal.Hand

end
-- ==== Proof.KI.OutVal.lean ====
/-
  The output array after the second pallas_call: its five blocks of 2000 rows are written back one per grid point and cover
  the array, block t being rows 2000 t … 2000 t + 1999, so entry (i, f) is the first accumulator's entry over the lane sum of
  the second accumulator's row i, a zero sum replaced by one.
-/
import proofs.«167729_g46076409151878_cont_8to1_c_255_12_alg».proof.Proof.KI.Data
import proofs.«167729_g46076409151878_cont_8to1_c_255_12_alg».proof.Proof.KI.OutPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the second region leaves in its output array, entry by entry -/

/-- The index maps of the three windows, decided over the grid: block row `t`, block column 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section Blocks

variable (V : (c : Dev nD) → (b : Ref sig .tc) → Buf (Elt F) ((c : Thread nD τ).loc b))

/-- The first input window's block at point `t` is rows `2000 t … 2000 t + 1999` of the first accumulator. -/
theorem iblk1_0_apply (c : Dev nD) (t : Fin cfg1.N) (x : S2000x128.Idx) (k : S10000x128.Idx)
    (hk0 : (k 0).val = 2000 * t.val + (x 0).val) (hk1 : (k 1).val = (x 1).val) :
    (iblk1 V c 0 t : Vec F S2000x128 .f32) x = (V c main_call0_v1_0 : S10000x128.Idx → Elt F .f32) k := by
  obtain ⟨e0, e1, -, -, -, -⟩ := idx_facts1 t
  unfold iblk1
  rw [View.read_apply]
  show V c main_call0_v1_0 _ = V c main_call0_v1_0 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The second input window's block at point `t` is rows `2000 t … 2000 t + 1999` of the second accumulator. -/
theorem iblk1_1_apply (c : Dev nD) (t : Fin cfg1.N) (x : S2000x128.Idx) (k : S10000x128.Idx)
    (hk0 : (k 0).val = 2000 * t.val + (x 0).val) (hk1 : (k 1).val = (x 1).val) :
    (iblk1 V c 1 t : Vec F S2000x128 .bf16) x = (V c main_call0_v1_1 : S10000x128.Idx → Elt F .bf16) k := by
  obtain ⟨-, -, e0, e1, -, -⟩ := idx_facts1 t
  unfold iblk1
  rw [View.read_apply]
  show V c main_call0_v1_1 _ = V c main_call0_v1_1 _
  congr 1
  funext a
  apply Fin.ext
  match a with
  | ⟨0, _⟩ => show win1_1.index t 0 * 2000 + 1 * (x 0).val = (k 0).val; rw [e0, hk0]; omega
  | ⟨1, _⟩ => show win1_1.index t 1 * 128 + 1 * (x 1).val = (k 1).val; rw [e1, hk1]; omega

end Blocks

/-- The payload of blocks that are rows `2000 q …` of two arrays, at an entry: the first array's entry over the second
    array's row sum (a zero sum replaced by one). -/
theorem pay1k_rows (v0 : Vec Ideal S2000x128 .bf16) (v9 : Vec Ideal S2000x128 .f32)
    (A0 A1 : S10000x128.Idx → EReal) (q : ℕ)
    (h9 : ∀ (x : S2000x128.Idx) (k : S10000x128.Idx), (k 0).val = 2000 * q + (x 0).val → (k 1).val = (x 1).val → v9 x = A0 k)
    (h0 : ∀ (x : S2000x128.Idx) (k : S10000x128.Idx), (k 0).val = 2000 * q + (x 0).val → (k 1).val = (x 1).val → v0 x = A1 k)
    (x : S2000x128.Idx) (k : S10000x128.Idx) (hk0 : (k 0).val = 2000 * q + (x 0).val) (hk1 : (k 1).val = (x 1).val) :
    k1_pay1 (F := Ideal) v0 v9 x
      = Ideal.div (A0 k) (Cert.Spec.nz (∑ l : Fin 128, A1 (ValueIdx.ix2 (⟨(k 0).val, (k 0).isLt⟩ : Fin 10000) l))) := by
  refine (congrArg (k1_pay1 (F := Ideal) v0 v9) (ValueIdx.eq_ix2 x)).trans ((pay1k_apply v0 v9 (x 0) (x 1)).trans ?_)
  refine congrArg₂ Ideal.div (h9 _ k hk0 hk1) (congrArg Cert.Spec.nz (Finset.sum_congr rfl fun l _ => h0 _ _ ?_ ?_))
  · exact hk0
  · rfl

section Out

variable (V : (c : Dev nD) → (b : Ref sig .tc) → Buf (Elt Ideal) ((c : Thread nD τ).loc b))

/-- What the output array ends holding: the first accumulator's entry over the row sum of the second (a zero sum replaced by one). -/
def Gout (c : Dev nD) : S10000x128.Idx → EReal := fun k =>
  Ideal.div ((V c main_call0_v1_0 : S10000x128.Idx → EReal) k)
    (Cert.Spec.nz (∑ l : Fin 128, (V c main_call0_v1_1 : S10000x128.Idx → EReal) (ValueIdx.ix2 (⟨(k 0).val, (k 0).isLt⟩ : Fin 10000) l)))

/-- What point `t` writes back is block `t` of `Gout`. -/
theorem flushed1_2_eq (c : Dev nD) (t : Fin cfg1.N) :
    (dat1 (F := Ideal) V c).flushed 2 t = ((cfg1.win 2).blk t).view.read (Elt Ideal) (Gout V c) := by
  show (cfg1.win 2).cut (grid1.coords t) ((dat1 (F := Ideal) V c).after 2 t) = _
  rw [after1_2]
  unfold outAt1
  obtain ⟨-, -, -, -, e4, e5⟩ := idx_facts1 t
  funext j
  rw [View.read_apply]
  refine pay1k_rows (iblk1 V c 1 t) (iblk1 V c 0 t) (V c main_call0_v1_0) (V c main_call0_v1_1) t.val
    (fun x k h0 h1 => iblk1_0_apply V c t x k h0 h1) (fun x k h0 h1 => iblk1_1_apply V c t x k h0 h1) j
    (((cfg1.win 2).blk t).view.emb j) ?_ ?_
  · show win1_2.index t 0 * 2000 + 1 * (j 0).val = 2000 * t.val + (j 0).val; rw [e4]; omega
  · show win1_2.index t 1 * 128 + 1 * (j 1).val = (j 1).val; rw [e5]; omega

/-- An index of the array is in point `t`'s block iff each coordinate is in the block's range on its axis. -/
theorem mem_blk1_2 (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v0).slice (win1_2.rect t)).set ↔ _
  rw [View.set_slice_whole, Rect.mem_set_unit]
  exact Iff.rfl

/-- Every index of the array is in the block of the point its row falls to. -/
theorem cover1_2 (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 5 := N_1
  have ht : (i 0).val / 2000 < cfg1.N := by rw [hN]; omega
  obtain ⟨-, -, -, -, e4, e5⟩ := idx_facts1 ⟨(i 0).val / 2000, ht⟩
  refine ⟨⟨(i 0).val / 2000, ht⟩, flush1_2 _, ?_⟩
  rw [mem_blk1_2]
  intro a
  match a with
  | ⟨0, _⟩ =>
    show win1_2.index ⟨(i 0).val / 2000, ht⟩ 0 * 2000 ≤ (i 0).val ∧ (i 0).val < win1_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ 1 * 128 ≤ (i 1).val ∧ (i 1).val < win1_2.index ⟨(i 0).val / 2000, ht⟩ 1 * 128 + 128
    rw [e5]; omega

/-- The output array after the five write-backs is `Gout`. -/
theorem out_eq (c : Dev nD) : (dat1 (F := Ideal) V c).arrAt 2 cfg1.N = Gout V c :=
  (dat1 (F := Ideal) V c).arrAt_eq_of_cover 2 (Gout V c) (fun t _ => flushed1_2_eq V c t) cover1_2

/-- the output array after the five write-backs -/
theorem out_apply (c : Dev nD) (i : Fin 10000) (f : Fin 128) :
    (dat1 (F := Ideal) V c).arrAt 2 cfg1.N (ValueIdx.ix2 i f)
      = Ideal.div (V c main_call0_v1_0 (ValueIdx.ix2 i f)) (Cert.Spec.nz (∑ l : Fin 128, V c main_call0_v1_1 (ValueIdx.ix2 i l))) :=
  congrFun (out_eq V c) (ValueIdx.ix2 i f)

end Out

end Cert.KernelIdeal.Hand

end
-- ==== Proof.KI.FinalArr.lean ====
/-
  What custom_call 0 leaves in its two output arrays: each output window's block is the whole array at block index zero,
  written back at the last point only, so each array ends holding what its accumulator holds after the last point.
-/
import proofs.«167729_g46076409151878_cont_8to1_c_255_12_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (V : (c : Dev nD) → (b : Ref sig .tc) → Buf (Elt F) ((c : Thread nD τ).loc b))

/-- The output windows' block index is zero on both axes at every point. -/
theorem idx_out0 : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem accAt_congr (c : Dev nD) {n n' : ℕ} (h : n = n') (hn : n < cfg0.N) (hn' : n' < cfg0.N) :
    accAt V c n hn = accAt V c n' hn' := by subst h; rfl
theorem sAt_congr (c : Dev nD) {n n' : ℕ} (h : n = n') (hn : n < cfg0.N) (hn' : n' < cfg0.N) :
    sAt V c n hn = sAt V c n' hn' := by subst h; rfl

theorem lt15 : 15 < cfg0.N := by show 15 < grid0.N; rw [N_0]; decide

/-- The first output array after the last point: the first accumulator after point 15. -/
theorem acc_final (c : Dev nD) :
    (dat0 (F := F) V c).arrAt 2 cfg0.N = (accAt V c 15 lt15 : S10000x128.Idx → Elt F .f32) := by
  refine (dat0 V c).arrAt_eq_of_cover 2 _ (fun t hf => ?_) (fun i => ?_)
  · have h15 : t.val = 15 := by
      have h1 := (flush0_2 t).mp hf; have h2 : t.val < grid0.N := t.isLt; have h3 : grid0.N = 16 := N_0; omega
    show (cfg0.win 2).cut (grid0.coords t) ((dat0 V c).after 2 t) = _
    rw [after0_2, accAt_congr V c h15 t.isLt lt15]
    obtain ⟨e0, e1, e2, e3⟩ := idx_out0 t
    funext j
    show accAt V c 15 lt15 ((cfg0.win 2).xinj (grid0.coords t) j) = accAt V c 15 lt15 (((cfg0.win 2).blk t).view.emb j)
    congr 1
    funext a; apply Fin.ext
    match a with
    | ⟨0, _⟩ => show (j 0).val = win0_2.index t (0 : Fin 2) * 10000 + 1 * (j 0).val; omega
    | ⟨1, _⟩ => show (j 1).val = win0_2.index t (1 : Fin 2) * 128 + 1 * (j 1).val; omega
  · refine ⟨t0_15, (flush0_2 t0_15).mpr rfl, ?_⟩
    obtain ⟨e0, e1, e2, e3⟩ := idx_out0 t0_15
    show i ∈ ((View.whole main_call0_v1_0).slice (win0_2.rect t0_15)).set
    rw [View.set_slice_whole, Rect.mem_set_unit]
    have hi0 : (i 0).val < 10000 := (i 0).isLt
    have hi1 : (i 1).val < 128 := (i 1).isLt
    intro a
    match a with
    | ⟨0, _⟩ => show win0_2.index t0_15 (0 : Fin 2) * 10000 ≤ (i 0).val ∧ (i 0).val < win0_2.index t0_15 (0 : Fin 2) * 10000 + 10000; omega
    | ⟨1, _⟩ => show win0_2.index t0_15 (1 : Fin 2) * 128 ≤ (i 1).val ∧ (i 1).val < win0_2.index t0_15 (1 : Fin 2) * 128 + 128; omega

/-- The second output array after the last point: the second accumulator after point 15. -/
theorem s_final (c : Dev nD) :
    (dat0 (F := F) V c).arrAt 3 cfg0.N = (sAt V c 15 lt15 : S10000x128.Idx → Elt F .bf16) := by
  refine (dat0 V c).arrAt_eq_of_cover 3 _ (fun t hf => ?_) (fun i => ?_)
  · have h15 : t.val = 15 := by
      have h1 := (flush0_3 t).mp hf; have h2 : t.val < grid0.N := t.isLt; have h3 : grid0.N = 16 := N_0; omega
    show (cfg0.win 3).cut (grid0.coords t) ((dat0 V c).after 3 t) = _
    rw [after0_3, sAt_congr V c h15 t.isLt lt15]
    obtain ⟨e0, e1, e2, e3⟩ := idx_out0 t
    funext j
    show sAt V c 15 lt15 ((cfg0.win 3).xinj (grid0.coords t) j) = sAt V c 15 lt15 (((cfg0.win 3).blk t).view.emb j)
    congr 1
    funext a; apply Fin.ext
    match a with
    | ⟨0, _⟩ => show (j 0).val = win0_3.index t (0 : Fin 2) * 10000 + 1 * (j 0).val; omega
    | ⟨1, _⟩ => show (j 1).val = win0_3.index t (1 : Fin 2) * 128 + 1 * (j 1).val; omega
  · refine ⟨t0_15, (flush0_3 t0_15).mpr rfl, ?_⟩
    obtain ⟨e0, e1, e2, e3⟩ := idx_out0 t0_15
    show i ∈ ((View.whole main_call0_v1_1).slice (win0_3.rect t0_15)).set
    rw [View.set_slice_whole, Rect.mem_set_unit]
    have hi0 : (i 0).val < 10000 := (i 0).isLt
    have hi1 : (i 1).val < 128 := (i 1).isLt
    intro a
    match a with
    | ⟨0, _⟩ => show win0_3.index t0_15 (0 : Fin 2) * 10000 ≤ (i 0).val ∧ (i 0).val < win0_3.index t0_15 (0 : Fin 2) * 10000 + 10000; omega
    | ⟨1, _⟩ => show win0_3.index t0_15 (1 : Fin 2) * 128 ≤ (i 1).val ∧ (i 1).val < win0_3.index t0_15 (1 : Fin 2) * 128 + 128; omega

end

end Cert.KernelIdeal.Hand

end
-- ==== Proof.KI.FinalHost.lean ====
/-
  The host stretch before custom_call 0: the embeddings converted to bf16 into their own buffer, nothing else written.
-/
import proofs.«167729_g46076409151878_cont_8to1_c_255_12_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (m : (ℓ : Loc nD τ sig) → Buf (Elt F) ℓ)

/-- At region 0's entry the bf16 embeddings are the launch embeddings converted. -/
theorem V1_call0_v0 (c : Dev nD) :
    (V1 m c main_call0_v0 : S10000x128.Idx → Elt F .bf16)
      = truncf .bf16 (m ((c : Thread nD τ).loc main_arg0) : S10000x128.Idx → Elt F .f32) bitsLt_bf16_f32 := by
  dsimp only [V1, W1, W0, hostOps0]; after_results; rfl

/-- The host stretch does not write the incidence matrix. -/
theorem V1_main_arg1 (c : Dev nD) : V1 m c main_arg1 = m ((c : Thread nD τ).loc main_arg1) :=
  StableHlo.after_of_writes_sub hostOps0 _ (W := [main_call0_v0]) (by
    simp only [List.Forall]; exact (by simp only [StableHlo.nullary_writes, StableHlo.unary_writes, StableHlo.binary_writes, Finset.singleton_subset_iff, List.mem_toFinset]; exact List.mem_map_of_mem (by decide))) (by decide)

end

end Cert.KernelIdeal.Hand

end
-- ==== Proof.KI.Final.lean ====
/-
  The kernel's result read at an index: the last boundary's contents of the result buffer are the first accumulator
  after the last stripe over the item's degree, the degree the lane sum of the second accumulator — from what the two
  accumulators hold after each point and what custom_call 1 leaves in its output array, all read at an index.
-/
import proofs.«167729_g46076409151878_cont_8to1_c_255_12_alg».proof.Proof.KI.FinalArr
import proofs.«167729_g46076409151878_cont_8to1_c_255_12_alg».proof.Proof.KI.FinalHost
import proofs.«167729_g46076409151878_cont_8to1_c_255_12_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (m : (ℓ : Loc nD τ sig) → Buf (Elt Ideal) ℓ)
variable (hacc : ∀ (V : (c : Dev nD) → (b : Ref sig .tc) → Buf (Elt Ideal) ((c : Thread nD τ).loc b)) (c : Dev nD) (n : ℕ) (hn : n < cfg0.N) (i : Fin 10000) (f : Fin 128),
      accAt (F := Ideal) V c n hn (ValueIdx.ix2 i f) = ∑ k : Fin 16, if k.val ≤ n then Cert.Spec.stripeTerm (Cert.Spec.ofArr (V c main_call0_v0)) (Cert.Spec.ofArr (V c main_arg1)) k i f else 0)
  (hs : ∀ (V : (c : Dev nD) → (b : Ref sig .tc) → Buf (Elt Ideal) ((c : Thread nD τ).loc b)) (c : Dev nD) (n : ℕ) (hn : n < cfg0.N) (i : Fin 10000) (l : Fin 128),
      sAt (F := Ideal) V c n hn (ValueIdx.ix2 i l) = ∑ k : Fin 16, if k.val ≤ n then Cert.Spec.hs (Cert.Spec.ofArr (V c main_arg1)) k i l else 0)
  (hout : ∀ (V : (c : Dev nD) → (b : Ref sig .tc) → Buf (Elt Ideal) ((c : Thread nD τ).loc b)) (c : Dev nD) (i : Fin 10000) (f : Fin 128),
      (dat1 (F := Ideal) V c).arrAt 2 cfg1.N (ValueIdx.ix2 i f) = Ideal.div (V c main_call0_v1_0 (ValueIdx.ix2 i f)) (Cert.Spec.nz (∑ l : Fin 128, V c main_call0_v1_1 (ValueIdx.ix2 i l))))

include hacc hs hout

theorem result_apply (c : Dev nD) (i : Fin 10000) (f : Fin 128) :
    W3 (F := Ideal) m c (Proc.devRef .tc main_v0) (ValueIdx.ix2 i f)
      = Cert.Spec.kerOut (Cert.Spec.ofArr (m ((c : Thread nD τ).loc main_arg0))) (Cert.Spec.ofArr (m ((c : Thread nD τ).loc main_arg1))) i f := by
  have hX : Cert.Spec.ofArr (V1 m c main_call0_v0) = Cert.Spec.ofArr (m ((c : Thread nD τ).loc main_arg0)) := by
    rw [V1_call0_v0]; rfl
  have hH : Cert.Spec.ofArr (V1 m c main_arg1) = Cert.Spec.ofArr (m ((c : Thread nD τ).loc main_arg1)) := by
    rw [V1_main_arg1]
  have hA : accAt (V1 m) c 15 lt15 (ValueIdx.ix2 i f)
      = Cert.Spec.kerAcc (Cert.Spec.ofArr (m ((c : Thread nD τ).loc main_arg0))) (Cert.Spec.ofArr (m ((c : Thread nD τ).loc main_arg1))) i f := by
    rw [hacc (V1 m) c 15 lt15 i f, hX, hH]; unfold Cert.Spec.kerAcc
    exact Finset.sum_congr rfl fun k _ => if_pos (by have := k.isLt; omega)
  have hS : ∀ l : Fin 128, sAt (V1 m) c 15 lt15 (ValueIdx.ix2 i l)
      = Cert.Spec.kerS (Cert.Spec.ofArr (m ((c : Thread nD τ).loc main_arg1))) i l := fun l => by
    rw [hs (V1 m) c 15 lt15 i l, hH]; unfold Cert.Spec.kerS
    exact Finset.sum_congr rfl fun k _ => if_pos (by have := k.isLt; omega)
  have e3 : W3 m c (Proc.devRef .tc main_v0) = (dat1 (V2 m) c).arrAt 2 cfg1.N := W3_arr m c 2
  have ea : V2 m c main_call0_v1_0 = accAt (V1 m) c 15 lt15 := (W2_arr m c 2).trans (acc_final (V1 m) c)
  have es : V2 m c main_call0_v1_1 = sAt (V1 m) c 15 lt15 := (W2_arr m c 3).trans (s_final (V1 m) c)
  rw [e3, hout (V2 m) c i f, ea, es, hA]
  unfold Cert.Spec.kerOut
  rw [Finset.sum_congr rfl fun l _ => hS l]

end

end Cert.KernelIdeal.Hand

end
-- ==== Proof.KI.Value.lean ====
/-
  The kernel's result array at the ideal instance, entry by entry: the masked stripes, the two accumulators summed over the
  16 stripes and the final quotient compose to `Cert.Spec.kerOut` of the two argument arrays.
-/
import proofs.«167729_g46076409151878_cont_8to1_c_255_12_alg».proof.Proof.KI.Frame
import proofs.«167729_g46076409151878_cont_8to1_c_255_12_alg».proof.Proof.KI.MaskIdeal
import proofs.«167729_g46076409151878_cont_8to1_c_255_12_alg».proof.Proof.KI.PayAcc
import proofs.«167729_g46076409151878_cont_8to1_c_255_12_alg».proof.Proof.KI.PayS
import proofs.«167729_g46076409151878_cont_8to1_c_255_12_alg».proof.Proof.KI.OutVal
import proofs.«167729_g46076409151878_cont_8to1_c_255_12_alg».proof.Proof.KI.Final

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The result buffer's last contents at (i, f) is the kernel's formula of the argument arrays. -/
theorem result (c : Dev nD) (i : Fin 10000) (f : Fin 128) :
    W3 (F := Ideal) m c (Proc.devRef .tc main_v0) (ValueIdx.ix2 i f)
      = Cert.Spec.kerOut (Cert.Spec.ofArr (m ((c : Thread nD τ).loc main_arg0))) (Cert.Spec.ofArr (m ((c : Thread nD τ).loc main_arg1))) i f :=
  result_apply m
    (fun V c n hn i f => accAt_apply V (fun c t i l => hblk_apply V c t i l) c n hn i f)
    (fun V c n hn i l => sAt_apply V (fun c t i l => hblk_apply V c t i l) c n hn i l)
    (fun V c i f => out_apply V c i f) c i f

/-- The run with the result named: the result buffer ends at `W3`'s contents, both arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = W3 (F := Ideal) m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨h c _ (mem_uc main_v0 (by decide)),
       (h c _ (mem_uc main_arg0 (by decide))).trans (W3_main_arg0 m c),
       (h c _ (mem_uc main_arg1 (by decide))).trans (W3_main_arg1 m c)⟩)
    (run_main (F := Ideal) m ρ)

end Cert.KernelIdeal.Hand

end
-- ==== Proof.RefRun.lean ====
/-
  The reference program's run. Its @main is a straight line of 37 host operations on the two argument arrays
  X : f32[10000, 128] and H : f32[10000, 2000]:  Hb = (H > 0) as a 0/1 float array; B = the column sums of Hb and
  D = its row sums, each with a zero replaced by one; then  out = (1 / D)[:, None] * (Hb @ ((1 / B)[:, None] * (Hbᵀ @ X))).
  Every weakly fair execution from zero counters terminates with the result buffer at the operations' composed term
  of the arguments' launch contents and both arguments unchanged. In that term the mask  H > 0  is turned into a
  float array and compared with zero again, which yields a mask once more: nothing around those operations determines
  which float values the arrays in between hold, so the conversion names them (`uitofp (F := F)`).
-/
import proofs.«167729_g46076409151878_cont_8to1_c_255_12_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 37 operations, in order (a called function's operations stand in its call's place, spelt `TRef.…`). -/
abbrev ops : List (HloOp τ sig (Elt F)) :=
  [ nullary main_cst (constant S_ .f32 0x00000000#32),
    unary main_cst main_v0 (broadcastInDim S10000x2000 ![] bcast_S_S10000x2000 : (⟨S_, .f32⟩ : BufTy).Contents (Elt F) → (⟨S10000x2000, .f32⟩ : BufTy).Contents (Elt F)),
    binary main_arg1 main_v0 main_v1 (cmpf .ogt : (⟨S10000x2000, .f32⟩ : BufTy).Contents (Elt F) → (⟨S10000x2000, .f32⟩ : BufTy).Contents (Elt F) → (⟨S10000x2000, .i1⟩ : BufTy).Contents (Elt F)),
    unary main_v1 main_v2 (uitofp .f32 : (⟨S10000x2000, .i1⟩ : BufTy).Contents (Elt F) → (⟨S10000x2000, .f32⟩ : BufTy).Contents (Elt F)),
    nullary main_cst_0 (constant S_ .f32 0x00000000#32),
    binary main_v2 main_cst_0 main_v3 ((fun x v => Host.reduceAdd x v reducesTo_S10000x2000_S2000_d0 h_S_) : (⟨S10000x2000, .f32⟩ : BufTy).Contents (Elt F) → (⟨S_, .f32⟩ : BufTy).Contents (Elt F) → (⟨S2000, .f32⟩ : BufTy).Contents (Elt F)),
    nullary main_cst_1 (constant S_ .f32 0x00000000#32),
    unary main_cst_1 main_v4 (broadcastInDim S2000 ![] bcast_S_S2000 : (⟨S_, .f32⟩ : BufTy).Contents (Elt F) → (⟨S2000, .f32⟩ : BufTy).Contents (Elt F)),
    binary main_v3 main_v4 main_v5 (cmpf .oeq : (⟨S2000, .f32⟩ : BufTy).Contents (Elt F) → (⟨S2000, .f32⟩ : BufTy).Contents (Elt F) → (⟨S2000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2000, .f32⟩) main_call0_v1) (broadcastInDim S2000 ![] bcast_S_S2000),
    TRef.ternary (TRef.of (T := ⟨S2000, .i1⟩) main_v5) (TRef.of (T := ⟨S2000, .f32⟩) main_call0_v1) (TRef.of (T := ⟨S2000, .f32⟩) main_v3) (TRef.of (T := ⟨S2000, .f32⟩) main_v6) select,
    nullary main_cst_3 (constant S_ .f32 0x3F800000#32),
    unary main_cst_3 main_v7 (broadcastInDim S2000 ![] bcast_S_S2000 : (⟨S_, .f32⟩ : BufTy).Contents (Elt F) → (⟨S2000, .f32⟩ : BufTy).Contents (Elt F)),
    binary main_v7 main_v6 main_v8 (Host.divf : (⟨S2000, .f32⟩ : BufTy).Contents (Elt F) → (⟨S2000, .f32⟩ : BufTy).Contents (Elt F) → (⟨S2000, .f32⟩ : BufTy).Contents (Elt F)),
    nullary main_cst_4 (constant S_ .f32 0x00000000#32),
    binary main_v2 main_cst_4 main_v9 ((fun x v => Host.reduceAdd x v reducesTo_S10000x2000_S10000_d1 h_S_) : (⟨S10000x2000, .f32⟩ : BufTy).Contents (Elt F) → (⟨S_, .f32⟩ : BufTy).Contents (Elt F) → (⟨S10000, .f32⟩ : BufTy).Contents (Elt F)),
    nullary main_cst_5 (constant S_ .f32 0x00000000#32),
    unary main_cst_5 main_v10 (broadcastInDim S10000 ![] bcast_S_S10000 : (⟨S_, .f32⟩ : BufTy).Contents (Elt F) → (⟨S10000, .f32⟩ : BufTy).Contents (Elt F)),
    binary main_v9 main_v10 main_v11 (cmpf .oeq : (⟨S10000, .f32⟩ : BufTy).Contents (Elt F) → (⟨S10000, .f32⟩ : BufTy).Contents (Elt F) → (⟨S10000, .i1⟩ : BufTy).Contents (Elt F)),
    nullary main_cst_6 (constant S_ .f32 0x3F800000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S10000, .f32⟩) main_call1_v1) (broadcastInDim S10000 ![] bcast_S_S10000),
    TRef.ternary (TRef.of (T := ⟨S10000, .i1⟩) main_v11) (TRef.of (T := ⟨S10000, .f32⟩) main_call1_v1) (TRef.of (T := ⟨S10000, .f32⟩) main_v9) (TRef.of (T := ⟨S10000, .f32⟩) main_v12) select,
    nullary main_cst_7 (constant S_ .f32 0x3F800000#32),
    unary main_cst_7 main_v13 (broadcastInDim S10000 ![] bcast_S_S10000 : (⟨S_, .f32⟩ : BufTy).Contents (Elt F) → (⟨S10000, .f32⟩ : BufTy).Contents (Elt F)),
    binary main_v13 main_v12 main_v14 (Host.divf : (⟨S10000, .f32⟩ : BufTy).Contents (Elt F) → (⟨S10000, .f32⟩ : BufTy).Contents (Elt F) → (⟨S10000, .f32⟩ : BufTy).Contents (Elt F)),
    unary main_v2 main_v15 ((transpose S2000x10000 [1, 0] · transposes_S10000x2000_S2000x10000_1_0) : (⟨S10000x2000, .f32⟩ : BufTy).Contents (Elt F) → (⟨S2000x10000, .f32⟩ : BufTy).Contents (Elt F)),
    binary main_v15 main_arg0 main_v16 ((fun l r => Host.dotGeneral dot_S2000x10000_S10000x128_S2000x128_1_0_0_1_n_n none l r) : (⟨S2000x10000, .f32⟩ : BufTy).Contents (Elt F) → (⟨S10000x128, .f32⟩ : BufTy).Contents (Elt F) → (⟨S2000x128, .f32⟩ : BufTy).Contents (Elt F)),
    unary main_v8 main_v17 (broadcastInDim S2000x1 ![0] bcast_S2000_S2000x1_0 : (⟨S2000, .f32⟩ : BufTy).Contents (Elt F) → (⟨S2000x1, .f32⟩ : BufTy).Contents (Elt F)),
    unary main_v17 main_v18 (broadcastInDim S2000x128 ![0, 1] bcast_S2000x1_S2000x128_0_1 : (⟨S2000x1, .f32⟩ : BufTy).Contents (Elt F) → (⟨S2000x128, .f32⟩ : BufTy).Contents (Elt F)),
    binary main_v18 main_v16 main_v19 (mulf : (⟨S2000x128, .f32⟩ : BufTy).Contents (Elt F) → (⟨S2000x128, .f32⟩ : BufTy).Contents (Elt F) → (⟨S2000x128, .f32⟩ : BufTy).Contents (Elt F)),
    binary main_v2 main_v19 main_v20 ((fun l r => Host.dotGeneral dot_S10000x2000_S2000x128_S10000x128_1_0_0_1_n_n none l r) : (⟨S10000x2000, .f32⟩ : BufTy).Contents (Elt F) → (⟨S2000x128, .f32⟩ : BufTy).Contents (Elt F) → (⟨S10000x128, .f32⟩ : BufTy).Contents (Elt F)),
    unary main_v14 main_v21 (broadcastInDim S10000x1 ![0] bcast_S10000_S10000x1_0 : (⟨S10000, .f32⟩ : BufTy).Contents (Elt F) → (⟨S10000x1, .f32⟩ : BufTy).Contents (Elt F)),
    unary main_v21 main_v22 (broadcastInDim S10000x128 ![0, 1] bcast_S10000x1_S10000x128_0_1 : (⟨S10000x1, .f32⟩ : BufTy).Contents (Elt F) → (⟨S10000x128, .f32⟩ : BufTy).Contents (Elt F)),
    binary main_v22 main_v20 main_v23 (mulf : (⟨S10000x128, .f32⟩ : BufTy).Contents (Elt F) → (⟨S10000x128, .f32⟩ : BufTy).Contents (Elt F) → (⟨S10000x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub ..⟩

set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = mulf (broadcastInDim S10000x128 ![0, 1] bcast_S10000x1_S10000x128_0_1 (broadcastInDim S10000x1 ![0] bcast_S10000_S10000x1_0 (Host.divf (broadcastInDim S10000 ![] bcast_S_S10000 (constant S_ .f32 0x3F800000#32)) (select (cmpf .oeq (Host.reduceAdd (uitofp (F := F) .f32 (cmpf .ogt (m ((c.tc : Thread nD τ).loc main_arg1)) (broadcastInDim S10000x2000 ![] bcast_S_S10000x2000 (constant S_ .f32 0x00000000#32)))) (constant S_ .f32 0x00000000#32) reducesTo_S10000x2000_S10000_d1 h_S_) (broadcastInDim S10000 ![] bcast_S_S10000 (constant S_ .f32 0x00000000#32))) (broadcastInDim S10000 ![] bcast_S_S10000 (id (constant S_ .f32 0x3F800000#32))) (Host.reduceAdd (uitofp (F := F) .f32 (cmpf .ogt (m ((c.tc : Thread nD τ).loc main_arg1)) (broadcastInDim S10000x2000 ![] bcast_S_S10000x2000 (constant S_ .f32 0x00000000#32)))) (constant S_ .f32 0x00000000#32) reducesTo_S10000x2000_S10000_d1 h_S_))))) (Host.dotGeneral dot_S10000x2000_S2000x128_S10000x128_1_0_0_1_n_n none (uitofp (F := F) .f32 (cmpf .ogt (m ((c.tc : Thread nD τ).loc main_arg1)) (broadcastInDim S10000x2000 ![] bcast_S_S10000x2000 (constant S_ .f32 0x00000000#32)))) (mulf (broadcastInDim S2000x128 ![0, 1] bcast_S2000x1_S2000x128_0_1 (broadcastInDim S2000x1 ![0] bcast_S2000_S2000x1_0 (Host.divf (broadcastInDim S2000 ![] bcast_S_S2000 (constant S_ .f32 0x3F800000#32)) (select (cmpf .oeq (Host.reduceAdd (uitofp (F := F) .f32 (cmpf .ogt (m ((c.tc : Thread nD τ).loc main_arg1)) (broadcastInDim S10000x2000 ![] bcast_S_S10000x2000 (constant S_ .f32 0x00000000#32)))) (constant S_ .f32 0x00000000#32) reducesTo_S10000x2000_S2000_d0 h_S_) (broadcastInDim S2000 ![] bcast_S_S2000 (constant S_ .f32 0x00000000#32))) (broadcastInDim S2000 ![] bcast_S_S2000 (id (constant S_ .f32 0x3F800000#32))) (Host.reduceAdd (uitofp (F := F) .f32 (cmpf .ogt (m ((c.tc : Thread nD τ).loc main_arg1)) (broadcastInDim S10000x2000 ![] bcast_S_S10000x2000 (constant S_ .f32 0x00000000#32)))) (constant S_ .f32 0x00000000#32) reducesTo_S10000x2000_S2000_d0 h_S_))))) (Host.dotGeneral dot_S2000x10000_S10000x128_S2000x128_1_0_0_1_n_n none (transpose S2000x10000 [1, 0] (uitofp (F := F) .f32 (cmpf .ogt (m ((c.tc : Thread nD τ).loc main_arg1)) (broadcastInDim S10000x2000 ![] bcast_S_S10000x2000 (constant S_ .f32 0x00000000#32)))) transposes_S10000x2000_S2000x10000_1_0) (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefRead1.lean ====
/-
  Single operations of the reference read at an index, at the exact values: the positivity mask as a 0/1 number, a degree
  with zero replaced by one, a matrix's column sums, and a plain matrix product.
-/
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

namespace Cert.RefRead

open Idealize.ShloMosaic Idealize.ShloMosaic.ValueIdx

/-- The mask `a > z` for a `z` that denotes zero, turned into a number, is one where `a` is positive and zero elsewhere. -/
theorem mask_pos (a z : EReal) (hz : z = 0) :
    (FloatOps.uitofp (F := Ideal) .f32 (FloatOps.cmpf (F := Ideal) (φ := .f32) .ogt a z) : EReal) = if 0 < a then 1 else 0 := by
  subst hz
  show (((Ideal.cmp .ogt a 0).toNat : ℝ) : EReal) = _
  unfold Ideal.cmp
  by_cases h : (0 : EReal) < a
  · simp [h]
  · simp [h]

/-- Selecting one where `s` equals a `z` that denotes zero, and `s` elsewhere. -/
theorem select_eq_zero (s z o : EReal) (hz : z = 0) (ho : o = 1) :
    Scalar.select (FloatOps.cmpf (F := Ideal) (φ := .f32) .oeq s z) o s = if s = 0 then 1 else s := by
  subst hz ho
  show Scalar.select (Ideal.cmp .oeq s 0) 1 s = _
  unfold Ideal.cmp Scalar.select
  by_cases h : s = 0
  · simp [h]
  · simp [h]

/-- Column `t` with the row `k` put back is the entry `(k, t)`. -/
theorem lift_col {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-- The host's float sum along axis 0 of an `[a, b]` matrix, at column `t`, is the initial value plus the sum of that
    column's entries. -/
theorem hostColSum_apply {a b : ℕ} (X : FVec Ideal ⟨2, ![a, b]⟩ .f32) (init : FVec Ideal ⟨0, ![]⟩ .f32)
    (h' : (⟨2, ![a, b]⟩ : Shape).ReducesTo [0] (⟨1, ![b]⟩ : Shape)) (hu : 0 < (⟨0, ![]⟩ : Shape).numel) (t : Fin b) :
    Host.reduceAdd X init h' hu (ix1 t) = init ix0 + ∑ k : Fin a, X (ix2 k t) := by
  have h : (⟨2, ![a, b]⟩ : Shape).Reduces [0] (⟨1, ![b]⟩ : Shape) := ⟨h'.1, Nat.one_pos, h'.2⟩
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_col h t k))

/-- A matrix product whose dimension numbers are the plain ones, read at an entry. -/
theorem dot_plain_apply {A K B : ℕ} (d : DotDims ⟨2, ![A, K]⟩ ⟨2, ![K, B]⟩ ⟨2, ![A, B]⟩) (hd : d = DotDims.plain A K B)
    (l : FVec Ideal ⟨2, ![A, K]⟩ .f32) (r : FVec Ideal ⟨2, ![K, B]⟩ .f32) (a : Fin A) (b : Fin B) :
    Host.dotGeneral d none l r (ix2 a b) = ∑ k : Fin K, l (ix2 a k) * r (ix2 k b) := by
  subst hd; exact StackMember.dotGeneral_plain_apply none l r a b

end Cert.RefRead

end
-- ==== Proof.LibHostColumn.lean ====
/-
  A column repeated along the rows of a matrix by the host, read at an entry.

  The host spells `keepdims` as two `broadcast_in_dim`s: a length-`a` vector placed on axis 0 of an `[a, 1]` column, and
  an `[a, 1]` column placed on both axes of an `[a, b]` matrix. The first reads, at `(p, u)`, the vector's entry `p`; the
  second reads, at `(p, c)`, the column's entry `p`.
-/
import Idealize.ShloMosaic.Lib.Pipeline.Value
import Idealize.ShloMosaic.Lib.ValueIdx

noncomputable section

namespace Cert.Lib.HostColumn

open Idealize.ShloMosaic Idealize.ShloMosaic.ValueIdx

variable {α : Type}

/-- An `[a]` vector broadcast along axis 0 of an `[a, 1]` column reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column broadcast along both axes of an `[a, b]` matrix reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The same with the axis map a variable equal to `![0]`. -/
theorem broadcastInDim_a_a1_apply' {a : ℕ} (dims : Fin (⟨1, ![a]⟩ : Shape).rank → Fin (⟨2, ![a, 1]⟩ : Shape).rank)
    (v : (⟨1, ![a]⟩ : Shape).Idx → α) (h : (⟨1, ![a]⟩ : Shape).BroadcastsInDim ⟨2, ![a, 1]⟩ dims) (hd : dims = ![0])
    (p : Fin a) (u : Fin 1) : broadcastInDim ⟨2, ![a, 1]⟩ dims h v (ix2 p u) = v (ix1 p) := by
  subst hd; exact broadcastInDim_a_a1_apply v h p u

/-- The same with the axis map a variable equal to `![0, 1]`. -/
theorem broadcastInDim_a1_ab_apply' {a b : ℕ} (dims : Fin (⟨2, ![a, 1]⟩ : Shape).rank → Fin (⟨2, ![a, b]⟩ : Shape).rank)
    (v : (⟨2, ![a, 1]⟩ : Shape).Idx → α) (h : (⟨2, ![a, 1]⟩ : Shape).BroadcastsInDim ⟨2, ![a, b]⟩ dims) (hd : dims = ![0, 1])
    (p : Fin a) (c : Fin b) : broadcastInDim ⟨2, ![a, b]⟩ dims h v (ix2 p c) = v (ix2 p (0 : Fin 1)) := by
  subst hd; exact broadcastInDim_a1_ab_apply v h p c

end Cert.Lib.HostColumn

end
-- ==== Proof.RefRead.lean ====
/-
  The reference's result read at an index, at the exact values.

  The reference's 37 operations are named stage by stage over its two argument arrays: the positivity mask of the
  incidence matrix as a 0/1 array, its column sums and row sums, each with a zero replaced by one and inverted, the
  message matrix (the transposed mask times the features) scaled by the inverse column degrees, and the mask times that,
  scaled by the inverse row degrees. Each stage is read at an index, and the last is the specification's formula.
-/
import proofs.«167729_g46076409151878_cont_8to1_c_255_12_alg».proof.Proof.RefRun
import proofs.«167729_g46076409151878_cont_8to1_c_255_12_alg».proof.Proof.Spec
import proofs.«167729_g46076409151878_cont_8to1_c_255_12_alg».proof.Proof.RefRead1
import proofs.«167729_g46076409151878_cont_8to1_c_255_12_alg».proof.Proof.LibRowReduce
import proofs.«167729_g46076409151878_cont_8to1_c_255_12_alg».proof.Proof.LibHostColumn
import Idealize.ShloMosaic.Lib.ValueIdx
import Idealize.ShloMosaic.Lib.Pipeline.Value
import Idealize.ShloMosaic.Lib.ValueLayout
import Idealize.ShloMosaic.PureOps.Ideal.Laws

noncomputable section

namespace Cert.RefRead

open Cert.ReferenceIdeal Cert.ReferenceIdeal.Gen Idealize.ShloMosaic Idealize.ShloMosaic.ValueIdx Idealize.ShloMosaic.TcCoe
  Idealize.SL.Sem Cert.Spec

variable (x : FVec Ideal S10000x128 .f32) (h : FVec Ideal S10000x2000 .f32)

/-- The positivity mask of the incidence matrix as a 0/1 array. -/
def hbA : FVec Ideal S10000x2000 .f32 :=
  uitofp (F := Ideal) .f32 (cmpf .ogt h (broadcastInDim S10000x2000 ![] bcast_S_S10000x2000 (constant S_ .f32 0x00000000#32)))

/-- Its column sums. -/
def colsum : FVec Ideal S2000 .f32 :=
  Host.reduceAdd (hbA h) (constant S_ .f32 0x00000000#32) reducesTo_S10000x2000_S2000_d0 h_S_

/-- The column sums with a zero replaced by one. -/
def colNz : FVec Ideal S2000 .f32 :=
  select (cmpf .oeq (colsum h) (broadcastInDim S2000 ![] bcast_S_S2000 (constant S_ .f32 0x00000000#32)))
    (broadcastInDim S2000 ![] bcast_S_S2000 (id (constant S_ .f32 0x3F800000#32))) (colsum h)

/-- Their inverses. -/
def colInv : FVec Ideal S2000 .f32 :=
  Host.divf (broadcastInDim S2000 ![] bcast_S_S2000 (constant S_ .f32 0x3F800000#32)) (colNz h)

/-- The mask's row sums. -/
def rowsum : FVec Ideal S10000 .f32 :=
  Host.reduceAdd (hbA h) (constant S_ .f32 0x00000000#32) reducesTo_S10000x2000_S10000_d1 h_S_

/-- The row sums with a zero replaced by one. -/
def rowNz : FVec Ideal S10000 .f32 :=
  select (cmpf .oeq (rowsum h) (broadcastInDim S10000 ![] bcast_S_S10000 (constant S_ .f32 0x00000000#32)))
    (broadcastInDim S10000 ![] bcast_S_S10000 (id (constant S_ .f32 0x3F800000#32))) (rowsum h)

/-- Their inverses. -/
def rowInv : FVec Ideal S10000 .f32 :=
  Host.divf (broadcastInDim S10000 ![] bcast_S_S10000 (constant S_ .f32 0x3F800000#32)) (rowNz h)

/-- The message matrix: the transposed mask times the features. -/
def msg : FVec Ideal S2000x128 .f32 :=
  Host.dotGeneral dot_S2000x10000_S10000x128_S2000x128_1_0_0_1_n_n none
    (transpose S2000x10000 [1, 0] (hbA h) transposes_S10000x2000_S2000x10000_1_0) x

/-- The message matrix scaled row by row by the inverse column degrees. -/
def msgS : FVec Ideal S2000x128 .f32 :=
  mulf (broadcastInDim S2000x128 ![0, 1] bcast_S2000x1_S2000x128_0_1 (broadcastInDim S2000x1 ![0] bcast_S2000_S2000x1_0 (colInv h)))
    (msg x h)

/-- The mask times the scaled messages. -/
def out : FVec Ideal S10000x128 .f32 :=
  Host.dotGeneral dot_S10000x2000_S2000x128_S10000x128_1_0_0_1_n_n none (hbA h) (msgS x h)

/-- The result: that product scaled row by row by the inverse row degrees. -/
def final : FVec Ideal S10000x128 .f32 :=
  mulf (broadcastInDim S10000x128 ![0, 1] bcast_S10000x1_S10000x128_0_1 (broadcastInDim S10000x1 ![0] bcast_S10000_S10000x1_0 (rowInv h)))
    (out x h)

/-- A broadcast zero constant reads zero. -/
theorem zeroB_apply {T : Shape} (hb : (⟨0, ![]⟩ : Shape).BroadcastsInDim T ![]) (j : T.Idx) :
    broadcastInDim T ![] hb (constant (F := Ideal) S_ .f32 0x00000000#32) j = 0 := by
  rw [broadcastInDim_scalar_apply, constant_apply, Ideal.ofBits_zero_f32]

/-- A broadcast one constant reads one. -/
theorem oneB_apply {T : Shape} (hb : (⟨0, ![]⟩ : Shape).BroadcastsInDim T ![]) (j : T.Idx) :
    broadcastInDim T ![] hb (constant (F := Ideal) S_ .f32 0x3F800000#32) j = 1 := by
  rw [broadcastInDim_scalar_apply, constant_apply, Ideal.ofBits_one_f32]

theorem hbA_apply (i : Fin 10000) (t : Fin 2000) : hbA h (ix2 i t) = if 0 < h (ix2 i t) then 1 else 0 :=
  mask_pos (h (ix2 i t)) _ (zeroB_apply bcast_S_S10000x2000 (ix2 i t))

theorem colsum_apply (t : Fin 2000) : colsum h (ix1 t) = ∑ j : Fin 10000, hbA h (ix2 j t) := by
  unfold colsum
  rw [hostColSum_apply, constant_apply, Ideal.ofBits_zero_f32, zero_add]

theorem rowsum_apply (i : Fin 10000) : rowsum h (ix1 i) = ∑ t : Fin 2000, hbA h (ix2 i t) := by
  unfold rowsum
  rw [Cert.Lib.RowReduce.hostRowSum_apply, constant_apply, Ideal.ofBits_zero_f32, zero_add]

theorem colNz_apply (t : Fin 2000) : colNz h (ix1 t) = nz (colsum h (ix1 t)) :=
  select_eq_zero (colsum h (ix1 t)) _ _ (zeroB_apply bcast_S_S2000 (ix1 t)) (oneB_apply bcast_S_S2000 (ix1 t))

theorem rowNz_apply (i : Fin 10000) : rowNz h (ix1 i) = nz (rowsum h (ix1 i)) :=
  select_eq_zero (rowsum h (ix1 i)) _ _ (zeroB_apply bcast_S_S10000 (ix1 i)) (oneB_apply bcast_S_S10000 (ix1 i))

theorem colInv_apply (t : Fin 2000) : colInv h (ix1 t) = Ideal.div 1 (nz (colsum h (ix1 t))) := by
  show Ideal.div (broadcastInDim S2000 ![] bcast_S_S2000 (constant (F := Ideal) S_ .f32 0x3F800000#32) (ix1 t)) (colNz h (ix1 t)) = _
  rw [oneB_apply, colNz_apply]

theorem rowInv_apply (i : Fin 10000) : rowInv h (ix1 i) = Ideal.div 1 (nz (rowsum h (ix1 i))) := by
  show Ideal.div (broadcastInDim S10000 ![] bcast_S_S10000 (constant (F := Ideal) S_ .f32 0x3F800000#32) (ix1 i)) (rowNz h (ix1 i)) = _
  rw [oneB_apply, rowNz_apply]

theorem msg_apply (t : Fin 2000) (f : Fin 128) : msg x h (ix2 t f) = ∑ j : Fin 10000, hbA h (ix2 j t) * x (ix2 j f) := by
  unfold msg
  rw [dot_plain_apply dot_S2000x10000_S10000x128_S2000x128_1_0_0_1_n_n rfl]
  exact Finset.sum_congr rfl fun j _ => by rw [transpose_ix2_apply]

theorem msgS_apply (t : Fin 2000) (f : Fin 128) : msgS x h (ix2 t f) = colInv h (ix1 t) * msg x h (ix2 t f) := by
  show broadcastInDim S2000x128 ![0, 1] bcast_S2000x1_S2000x128_0_1 (broadcastInDim S2000x1 ![0] bcast_S2000_S2000x1_0 (colInv h)) (ix2 t f)
    * msg x h (ix2 t f) = _
  rw [Cert.Lib.HostColumn.broadcastInDim_a1_ab_apply, Cert.Lib.HostColumn.broadcastInDim_a_a1_apply]

theorem out_apply (i : Fin 10000) (f : Fin 128) : out x h (ix2 i f) = ∑ t : Fin 2000, hbA h (ix2 i t) * msgS x h (ix2 t f) := by
  unfold out
  rw [dot_plain_apply dot_S10000x2000_S2000x128_S10000x128_1_0_0_1_n_n rfl]

theorem final_apply (i : Fin 10000) (f : Fin 128) : final x h (ix2 i f) = rowInv h (ix1 i) * out x h (ix2 i f) := by
  show broadcastInDim S10000x128 ![0, 1] bcast_S10000x1_S10000x128_0_1 (broadcastInDim S10000x1 ![0] bcast_S10000_S10000x1_0 (rowInv h)) (ix2 i f)
    * out x h (ix2 i f) = _
  rw [Cert.Lib.HostColumn.broadcastInDim_a1_ab_apply, Cert.Lib.HostColumn.broadcastInDim_a_a1_apply]

/-- The mask read at an entry is the specification's binarised incidence matrix. -/
theorem hbA_eq_hb (i : Fin 10000) (t : Fin 2000) : hbA h (ix2 i t) = hb (ofArr h) i t := hbA_apply h i t

/-- The reference's result at `(i, f)` is the specification's formula. -/
theorem result_apply (i : Fin 10000) (f : Fin 128) : final x h (ix2 i f) = refOut (ofArr x) (ofArr h) i f := by
  rw [final_apply, rowInv_apply, rowsum_apply, out_apply]
  unfold refOut
  simp only [hbA_eq_hb, msgS_apply, colInv_apply, colsum_apply, msg_apply]
  rfl

end Cert.RefRead

open Idealize.ShloMosaic Idealize.ShloMosaic.TcCoe Idealize.SL.Sem Cert.ReferenceIdeal in
theorem Cert.RefRead.run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      (∀ (i : Fin 10000) (f : Fin 128), r.2.mem ((c.tc : Thread nD τ).loc main_v23) (ValueIdx.ix2 i f)
          = Cert.Spec.refOut (Cert.Spec.ofArr (m ((c.tc : Thread nD τ).loc main_arg0))) (Cert.Spec.ofArr (m ((c.tc : Thread nD τ).loc main_arg1))) i f)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨fun i f => by
      rw [(h c).1]
      exact Cert.RefRead.result_apply (m ((c.tc : Thread nD τ).loc main_arg0)) (m ((c.tc : Thread nD τ).loc main_arg1)) i f, (h c).2⟩)
    (Cert.ReferenceIdeal.RefRun.run (F := Ideal) m ρ)

end
-- ==== Proof.LibSumBlocks.lean ====
/-
  A sum over the first `a * b` naturals, cut into `a` consecutive blocks of `b` terms each.

  A contraction of depth `a * b` that is carried out `b` terms at a time — one partial sum per block, the partial
  sums then added up — meets every term exactly once: the term at `k` in block `k / b`, at place `k % b`. In a
  commutative monoid the two groupings have the same value; nothing else about the addition is used (in particular
  no cancellation, so the statement holds on the extended reals with their infinities).
-/
import Mathlib.Algebra.BigOperators.Fin
import Mathlib.Algebra.BigOperators.Intervals

namespace Cert.Lib.SumBlocks

open Finset

/-- The sum of `g` over `0 … a·b - 1` is the sum over the blocks `s < a` of the block's `b` terms `g (b·s + r)`, `r < b`. -/
theorem sum_range_mul_blocks {M : Type*} [AddCommMonoid M] (g : ℕ → M) (a b : ℕ) :
    ∑ k ∈ range (a * b), g k = ∑ s ∈ range a, ∑ r ∈ range b, g (b * s + r) := by
  induction a with
  | zero => simp
  | succ a ih =>
    rw [Nat.succ_mul, sum_range_add, ih, sum_range_succ, Nat.mul_comm a b]

/-- The same with the whole sum and each block's sum indexed by `Fin`: a `Fin (a·b)`-indexed sum of a function of the
    index's value is the sum over the blocks `s < a` of the `Fin b`-indexed sums of the block's terms. -/
theorem sum_fin_mul_blocks {M : Type*} [AddCommMonoid M] (g : ℕ → M) (a b : ℕ) :
    ∑ k : Fin (a * b), g k.val = ∑ s ∈ range a, ∑ r : Fin b, g (b * s + r.val) := by
  rw [Fin.sum_univ_eq_sum_range (fun k => g k) (a * b), sum_range_mul_blocks]
  exact sum_congr rfl fun s _ => (Fin.sum_univ_eq_sum_range (fun r => g (b * s + r)) b).symm

/-- The instance a depth-4096 contraction done in eight blocks of 512 needs, with the literal `4096` in the type. -/
theorem sum_fin_4096_blocks {M : Type*} [AddCommMonoid M] (g : ℕ → M) :
    ∑ k : Fin 4096, g k.val = ∑ s ∈ range 8, ∑ r : Fin 512, g (512 * s + r.val) :=
  sum_fin_mul_blocks g 8 512

end Cert.Lib.SumBlocks
-- ==== Proof.AlgSums.lean ====
/-
  The sum over the 2000 tags, regrouped as sixteen stripes of 128 lanes with the 48 lanes past the last tag carrying zero.
-/
import proofs.«167729_g46076409151878_cont_8to1_c_255_12_alg».proof.Proof.LibSumBlocks

namespace Cert.Alg

open Finset

/-- A sum over the 2000 tags is the sum over 16 stripes of 128 lanes, lane `l` of stripe `k` being tag `128 k + l`
    when that is a tag and contributing zero otherwise. Holds in any commutative additive monoid. -/
theorem sum_tags_eq_stripes {M : Type*} [AddCommMonoid M] (g : Fin 2000 → M) :
    ∑ t : Fin 2000, g t
      = ∑ k : Fin 16, ∑ l : Fin 128, (if h : 128 * k.val + l.val < 2000 then g ⟨128 * k.val + l.val, h⟩ else 0) := by
  let g' : ℕ → M := fun n => if h : n < 2000 then g ⟨n, h⟩ else 0
  have h1 : ∑ t : Fin 2000, g t = ∑ n ∈ range 2000, g' n := by
    rw [← Fin.sum_univ_eq_sum_range]
    exact Finset.sum_congr rfl (fun t _ => by simp [g', t.isLt])
  have h2 : ∑ n ∈ range 2000, g' n = ∑ n ∈ range (16 * 128), g' n := by
    apply Finset.sum_subset
    · intro n hn
      simp only [mem_range] at hn ⊢
      omega
    · intro n _ hn
      simp only [mem_range] at hn
      simp only [g']
      rw [dif_neg hn]
  rw [h1, h2, Cert.Lib.SumBlocks.sum_range_mul_blocks]
  rw [← Fin.sum_univ_eq_sum_range (fun s => ∑ r ∈ range 128, g' (128 * s + r)) 16]
  refine Finset.sum_congr rfl (fun k _ => ?_)
  rw [← Fin.sum_univ_eq_sum_range (fun r => g' (128 * k.val + r)) 128]

end Cert.Alg
-- ==== Proof.Alg.lean ====
/-
  The kernel's formula and the reference's formula have the same value.

  The incidence matrix is 0/1, so binarising it changes nothing. The kernel walks the 2000 tags in 16 stripes of 128
  lanes; a lane past the last tag carries zeros, so its term is 0 · … = 0, and the stripe sums regroup into sums over
  the tags. A degree with zero replaced by one is never zero, so dividing by it is multiplying by its inverse, and
  a / d = (1 / d) · a. Products commute on the extended reals; no distributivity is used.
-/
import proofs.«167729_g46076409151878_cont_8to1_c_255_12_alg».proof.Proof.Spec
import proofs.«167729_g46076409151878_cont_8to1_c_255_12_alg».proof.Proof.AlgSums

namespace Cert.Alg

open Finset Cert.Spec Idealize.ShloMosaic

/-- A degree used as a divisor is never zero. -/
theorem nz_ne_zero (x : EReal) : nz x ≠ 0 := by
  unfold nz
  split_ifs with h
  · exact one_ne_zero
  · exact h

/-- Dividing by a nonzero divisor is multiplying by the reciprocal, on either side. -/
theorem div_eq_recip_mul (a y : EReal) (hy : y ≠ 0) : Ideal.div a y = Ideal.div 1 y * a := by
  rw [Ideal.div, if_neg hy, Ideal.div, if_neg hy, one_mul, mul_comm]

/-- A 0/1 matrix is its own binarisation. -/
theorem hb_eq (H : Mat 10000 2000) (hH : ∀ i t, H i t = 0 ∨ H i t = 1) : hb H = H := by
  funext i t
  unfold hb
  rcases hH i t with h | h
  · rw [h, if_neg (lt_irrefl _)]
  · rw [h, if_pos zero_lt_one]

/-- The row sums of the second accumulator are the item's degree. -/
theorem sum_kerS (H : Mat 10000 2000) (i : Fin 10000) :
    ∑ l : Fin 128, kerS H i l = ∑ t : Fin 2000, H i t := by
  unfold kerS
  rw [Finset.sum_comm, sum_tags_eq_stripes (fun t => H i t)]
  rfl

/-- The first accumulator is a sum over the tags. -/
theorem kerAcc_eq (X : Mat 10000 128) (H : Mat 10000 2000) (i : Fin 10000) (f : Fin 128) :
    kerAcc X H i f
      = ∑ t : Fin 2000, H i t * ((∑ j : Fin 10000, H j t * X j f) * Ideal.div 1 (nz (∑ j : Fin 10000, H j t))) := by
  unfold kerAcc stripeTerm
  rw [sum_tags_eq_stripes
    (fun t => H i t * ((∑ j : Fin 10000, H j t * X j f) * Ideal.div 1 (nz (∑ j : Fin 10000, H j t))))]
  refine Finset.sum_congr rfl (fun k _ => Finset.sum_congr rfl (fun l _ => ?_))
  by_cases h : 128 * k.val + l.val < 2000
  · simp only [hs, dif_pos h]
  · simp only [hs, dif_neg h, zero_mul]

theorem kerOut_eq_refOut (X : Cert.Spec.Mat 10000 128) (H : Cert.Spec.Mat 10000 2000)
    (hH : ∀ i t, H i t = 0 ∨ H i t = 1) (hX : ∀ j f, X j f ≠ ⊤ ∧ X j f ≠ ⊥) :
    Cert.Spec.kerOut X H = Cert.Spec.refOut X H := by
  funext i f
  unfold kerOut refOut
  rw [hb_eq H hH, sum_kerS, kerAcc_eq, div_eq_recip_mul _ _ (nz_ne_zero _)]
  congr 1
  refine Finset.sum_congr rfl (fun t _ => ?_)
  rw [mul_comm (∑ j : Fin 10000, H j t * X j f)]

end Cert.Alg
-- ==== Proof.LibFiniteAll.lean ====
/-
  "Every entry is finite", read back from its one-bit test.

  A precondition that an f32 array `a` holds finite numbers is stated as `all(|a| < +∞)`: the entrywise comparison of
  `|a|` with the word `0x7F800000` splat over the array's shape, reduced by `and` over every axis from the bit 1 to a
  single bit. On the extended reals that word is `⊤` and `|x|` is `max x (-x)`. If the reduction is the bit 1, every
  entry compared true, and `max x (-x) < ⊤` holds of a real number and of neither infinity: so every entry of `a` is
  a real number. Stated for any shape and any list of reduced axes.
-/
import Idealize.ShloMosaic.Lib.ReduceAll
import Idealize.ShloMosaic.Lib.ValueIdx
import Idealize.ShloMosaic.Lib.Pipeline.Value

noncomputable section

namespace Cert.Lib.FiniteAll

open Idealize.ShloMosaic Idealize.ShloMosaic.ValueIdx

/-- The f32 word `0x7F800000` is `+∞`. -/
theorem ofBits_inf : Ideal.ofBits .f32 0x7F800000#32 = ⊤ := by simp [Ideal.ofBits, Ideal.ieee]

/-- `|x| < +∞` holds of no infinity. -/
theorem finite_of_lt (x : EReal) (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- The scalar shape has one index. -/
instance scalarIdx_subsingleton : Subsingleton (⟨0, ![]⟩ : Shape).Idx := ⟨fun _ _ => funext fun d => d.elim0⟩

/-- If "all entries of `a` have `|a| < +∞`" reduced to the bit 1, every entry of `a` is a real number. -/
theorem finite_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) : ∀ i, a i ≠ ⊤ ∧ a i ≠ ⊥ := by
  intro i
  have hi := Host.reduce_andi_all _ _ hr hu ix0 e i
  have hc : broadcastInDim s ![] hb (constant (F := Ideal) ⟨0, ![]⟩ .f32 0x7F800000#32) i = Ideal.ofBits .f32 0x7F800000#32 :=
    broadcastInDim_apply _ hb _ i ix0 (fun a => a.elim0)
  rw [cmpf_apply, hc] at hi
  exact finite_of_lt (a i) hi

end Cert.Lib.FiniteAll

end
-- ==== Proof.PreDecode.lean ====
/-
  The precondition "both inputs hold finite numbers, and the second holds only zeros and ones", read back from its
  one-bit test into the two facts about the entries.
-/
import proofs.«167729_g46076409151878_cont_8to1_c_255_12_alg».proof.Pre_finite_inputs
import proofs.«167729_g46076409151878_cont_8to1_c_255_12_alg».proof.Proof.Gen.Pre_finite_inputs
import proofs.«167729_g46076409151878_cont_8to1_c_255_12_alg».proof.Proof.LibFiniteAll
import Idealize.ShloMosaic.Lib.ReduceAll
import Idealize.ShloMosaic.Lib.ValueIdx
import Idealize.ShloMosaic.Lib.IdealHost
import Idealize.ShloMosaic.PureOps.Ideal

noncomputable section

namespace Cert.PreDecode

open Idealize.ShloMosaic Idealize.ShloMosaic.ValueIdx

/-- An entry that compares equal to the word of zero or to the word of one is zero or one. -/
theorem zero_or_one_of_bit (y : EReal)
    (e : IntOp.ori (Ideal.cmp .oeq y (Ideal.ofBits .f32 0x00000000#32)) (Ideal.cmp .oeq y (Ideal.ofBits .f32 0x3F800000#32)) = 1#1) :
    y = 0 ∨ y = 1 := by
  rw [Ideal.ofBits_zero_f32, Ideal.ofBits_one_f32] at e
  rcases IntOp.ori_eq_one.1 e with e0 | e1
  · left; by_contra hne; simp [Ideal.cmp, hne] at e0
  · right; by_contra hne; simp [Ideal.cmp, hne] at e1

/-- If the precondition is the bit 1, every entry of the first input is a real number and every entry of the second
    input is zero or one. -/
theorem decode [hP : Cert.Pre_finite_inputs.Facts]
    (x : FVec Ideal Cert.Pre_finite_inputs.S10000x128 .f32) (h : FVec Ideal Cert.Pre_finite_inputs.S10000x2000 .f32)
    (hpre : Cert.Pre_finite_inputs.fn (F := Ideal) x h = (fun _ => 1#1)) :
    (∀ j, x j ≠ ⊤ ∧ x j ≠ ⊥) ∧ (∀ j, h j = 0 ∨ h j = 1) := by
  have e := congrFun hpre ix0
  dsimp only [Cert.Pre_finite_inputs.fn] at e
  obtain ⟨e12, e3⟩ := IntOp.andi_eq_one.1 e
  obtain ⟨e1, _⟩ := IntOp.andi_eq_one.1 e12
  refine ⟨Cert.Lib.FiniteAll.finite_of_all x _ _ _ e1, fun j => ?_⟩
  have hj := Host.reduce_andi_all _ _ _ _ ix0 e3 j
  have hc0 : broadcastInDim Cert.Pre_finite_inputs.S10000x2000 ![] hP.bcast_S_S10000x2000
      (constant (F := Ideal) Cert.Pre_finite_inputs.S_ .f32 0x00000000#32) j = Ideal.ofBits .f32 0x00000000#32 :=
    broadcastInDim_apply _ _ _ j ix0 (fun a => a.elim0)
  have hc1 : broadcastInDim Cert.Pre_finite_inputs.S10000x2000 ![] hP.bcast_S_S10000x2000
      (constant (F := Ideal) Cert.Pre_finite_inputs.S_ .f32 0x3F800000#32) j = Ideal.ofBits .f32 0x3F800000#32 :=
    broadcastInDim_apply _ _ _ j ix0 (fun a => a.elim0)
  change IntOp.ori (Ideal.cmp .oeq (h j) _) (Ideal.cmp .oeq (h j) _) = 1#1 at hj
  rw [hc0, hc1] at hj
  exact zero_or_one_of_bit (h j) hj

end Cert.PreDecode

end
-- ==== Proof.lean ====
/-
  The claim: a fused hypergraph convolution  out = D⁻¹ H B⁻¹ Hᵀ X  against its jnp reference, over the extended reals.

  The kernel side is two pallas_calls. The first walks the 2000 tag columns of H in 16 stripes of 128 lanes (the last stripe
  has 80 real lanes; the 48 beyond the array are masked to zero) and, stripe by stripe, adds
  H_k · ((H_kᵀ X) scaled row-wise by 1 / B_k) into an accumulator kept over the grid, B_k the stripe's column sums with a
  zero replaced by one, and H_k into a second accumulator whose row sums are the item degrees D. The second divides the first
  accumulator, in five blocks of 2000 rows, by D with a zero replaced by one. The reference binarises H first (Hb = H > 0) and
  computes (1 / D) · (Hb · ((1 / B) · (Hbᵀ X))) with whole-array sums and products.

  The two agree on 0/1 incidence matrices (then Hb = H; a / d is (1 / d) · a for d ≠ 0, a sum over the 2000 tags is the sum of
  its 16 stripes, the padded lanes contributing zero, and the factor 1 / B_t moves across the inner sum — laws of a commutative
  monoid, valid at the infinities too); they differ on other finite H, so the precondition also asks that every entry of H be
  0 or 1.

  The modules: Spec (both sides as formulas), Alg (the law between them), PreDecode (the precondition read entry by entry),
  RefRun / RefRead (the reference's run and its result at an index), KI/… (the idealized kernel: proof data, the bodies' runs,
  the body obligations, the launch, the accumulators and the result at an index), K/… (the same frame for the word-level kernel).
-/
import proofs.«167729_g46076409151878_cont_8to1_c_255_12_alg».proof.Defs
import proofs.«167729_g46076409151878_cont_8to1_c_255_12_alg».proof.Proof.Gen.Kernel
import proofs.«167729_g46076409151878_cont_8to1_c_255_12_alg».proof.Proof.Gen.KernelIdeal
import proofs.«167729_g46076409151878_cont_8to1_c_255_12_alg».proof.Proof.Gen.ReferenceIdeal
import proofs.«167729_g46076409151878_cont_8to1_c_255_12_alg».proof.Proof.Gen.Pre_finite_inputs
import proofs.«167729_g46076409151878_cont_8to1_c_255_12_alg».proof.Proof.K.Frame
import proofs.«167729_g46076409151878_cont_8to1_c_255_12_alg».proof.Proof.KI.Value
import proofs.«167729_g46076409151878_cont_8to1_c_255_12_alg».proof.Proof.RefRead
import proofs.«167729_g46076409151878_cont_8to1_c_255_12_alg».proof.Proof.Alg
import proofs.«167729_g46076409151878_cont_8to1_c_255_12_alg».proof.Proof.PreDecode

noncomputable section

namespace Cert.Proof

open Idealize.ShloMosaic Idealize.ShloMosaic.TcCoe Idealize.SL.Sem

/-- The word-level kernel runs to the end without a fault and leaves both argument arrays as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run, with the result's contents dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, both idealized programs end with the same result array: the kernel's is
    `Cert.Spec.kerOut` of the arguments entry by entry, the reference's `Cert.Spec.refOut`, and on a 0/1 incidence matrix the
    two formulas are equal. -/
theorem algebraic : Cert.algebraic_KernelIdeal_ReferenceIdeal := by
  intro m ρ m' ρ' hpre hagree
  refine ⟨fun c => Cert.KernelIdeal.Hand.W3 (F := Ideal) m c (Proc.devRef .tc Cert.KernelIdeal.main_v0),
    Cert.KernelIdeal.Hand.run_value m ρ, ?_⟩
  refine (θ_run Cert.ReferenceIdeal.defs _ _).mono (fun _ h c => ⟨?_, (h c).2⟩) (Cert.RefRead.run_spec m' ρ')
  obtain ⟨hX, hH⟩ := Cert.PreDecode.decode _ _ (hpre c)
  funext j
  obtain ⟨i, f, rfl⟩ : ∃ (i : Fin 10000) (f : Fin 128), j = ValueIdx.ix2 i f := ⟨j 0, j 1, ValueIdx.eq_ix2 j⟩
  have hk := Cert.Alg.kerOut_eq_refOut (Cert.Spec.ofArr (m ((c.tc : Thread Cert.KernelIdeal.nD Cert.KernelIdeal.τ).loc Cert.KernelIdeal.main_arg0)))
    (Cert.Spec.ofArr (m ((c.tc : Thread Cert.KernelIdeal.nD Cert.KernelIdeal.τ).loc Cert.KernelIdeal.main_arg1)))
    (fun i t => hH (ValueIdx.ix2 i t)) (fun j f => hX (ValueIdx.ix2 j f))
  rw [(h c).1 i f, (hagree c).1, (hagree c).2]
  show Cert.Spec.refOut _ _ i f = Cert.KernelIdeal.Hand.W3 (F := Ideal) m c (Proc.devRef .tc Cert.KernelIdeal.main_v0) (ValueIdx.ix2 i f)
  rw [Cert.KernelIdeal.Hand.result m c i f, hk]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
